-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v19_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v19_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x1 : Shape := ⟨2, ![16384, 1]⟩
abbrev S512x2049 : Shape := ⟨2, ![512, 2049]⟩
abbrev S2049 : Shape := ⟨1, ![2049]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x1 : S_.BroadcastsInDim S16384x1 (![] : Fin 0 → Fin S16384x1.rank)
  reducesTo_S16384x1_S_d0_1 : S16384x1.ReducesTo [0, 1] S_
  bcast_S_S512x2049 : S_.BroadcastsInDim S512x2049 (![] : Fin 0 → Fin S512x2049.rank)
  reducesTo_S512x2049_S_d0_1 : S512x2049.ReducesTo [0, 1] S_
  bcast_S_S2049 : S_.BroadcastsInDim S2049 (![] : Fin 0 → Fin S2049.rank)
  reducesTo_S2049_S_d0 : S2049.ReducesTo [0] S_

variable [Facts]

def fn_part2 {F : FTy → Type} [FloatOps F] (main_arg7 : FVec F S512x2049 .f32) (main_arg8 : FVec F S512x2049 .f32) (main_arg9 : FVec F S2049 .f32) (main_v33 : IVec S_ 1) : IVec S_ 1 :=
  let main_v34 : FVec F S512x2049 .f32 := Host.absf main_arg7
  let main_cst_12 : FVec F S_ .f32 := constant S_ .f32 0x7F800000#32
  let main_v35 : FVec F S512x2049 .f32 := broadcastInDim S512x2049 ![] bcast_S_S512x2049 main_cst_12
  let main_v36 : IVec S512x2049 1 := cmpf .olt main_v34 main_v35
  let main_c_13 : IVec S_ 1 := constantI S_ 1 1#1
  let main_v37 : IVec S_ 1 := (fun x v => Host.reduce IntOp.andi x v reducesTo_S512x2049_S_d0_1 h_S_) main_v36 main_c_13
  let main_v38 : IVec S_ 1 := andi main_v33 main_v37
  let main_v39 : FVec F S512x2049 .f32 := Host.absf main_arg8
  let main_cst_14 : FVec F S_ .f32 := constant S_ .f32 0x7F800000#32
  let main_v40 : FVec F S512x2049 .f32 := broadcastInDim S512x2049 ![] bcast_S_S512x2049 main_cst_14
  let main_v41 : IVec S512x2049 1 := cmpf .olt main_v39 main_v40
  let main_c_15 : IVec S_ 1 := constantI S_ 1 1#1
  let main_v42 : IVec S_ 1 := (fun x v => Host.reduce IntOp.andi x v reducesTo_S512x2049_S_d0_1 h_S_) main_v41 main_c_15
  let main_v43 : IVec S_ 1 := andi main_v38 main_v42
  let main_v44 : FVec F S2049 .f32 := Host.absf main_arg9
  let main_cst_16 : FVec F S_ .f32 := constant S_ .f32 0x7F800000#32
  let main_v45 : FVec F S2049 .f32 := broadcastInDim S2049 ![] bcast_S_S2049 main_cst_16
  let main_v46 : IVec S2049 1 := cmpf .olt main_v44 main_v45
  let main_c_17 : IVec S_ 1 := constantI S_ 1 1#1
  let main_v47 : IVec S_ 1 := (fun x v => Host.reduce IntOp.andi x v reducesTo_S2049_S_d0 h_S_) main_v46 main_c_17
  let main_v48 : IVec S_ 1 := andi main_v43 main_v47
  main_v48

def fn_part1 {F : FTy → Type} [FloatOps F] (main_arg4 : FVec F S16384x1 .f32) (main_arg5 : FVec F S16384x1 .f32) (main_arg6 : FVec F S512x2049 .f32) (main_arg7 : FVec F S512x2049 .f32) (main_arg8 : FVec F S512x2049 .f32) (main_arg9 : FVec F S2049 .f32) (main_v13 : IVec S_ 1) (main_v16 : IVec S16384x512 1) : IVec S_ 1 :=
  let main_c_5 : IVec S_ 1 := constantI S_ 1 1#1
  let main_v17 : IVec S_ 1 := (fun x v => Host.reduce IntOp.andi x v reducesTo_S16384x512_S_d0_1 h_S_) main_v16 main_c_5
  let main_v18 : IVec S_ 1 := andi main_v13 main_v17
  let main_v19 : FVec F S16384x1 .f32 := Host.absf main_arg4
  let main_cst_6 : FVec F S_ .f32 := constant S_ .f32 0x7F800000#32
  let main_v20 : FVec F S16384x1 .f32 := broadcastInDim S16384x1 ![] bcast_S_S16384x1 main_cst_6
  let main_v21 : IVec S16384x1 1 := cmpf .olt main_v19 main_v20
  let main_c_7 : IVec S_ 1 := constantI S_ 1 1#1
  let main_v22 : IVec S_ 1 := (fun x v => Host.reduce IntOp.andi x v reducesTo_S16384x1_S_d0_1 h_S_) main_v21 main_c_7
  let main_v23 : IVec S_ 1 := andi main_v18 main_v22
  let main_v24 : FVec F S16384x1 .f32 := Host.absf main_arg5
  let main_cst_8 : FVec F S_ .f32 := constant S_ .f32 0x7F800000#32
  let main_v25 : FVec F S16384x1 .f32 := broadcastInDim S16384x1 ![] bcast_S_S16384x1 main_cst_8
  let main_v26 : IVec S16384x1 1 := cmpf .olt main_v24 main_v25
  let main_c_9 : IVec S_ 1 := constantI S_ 1 1#1
  let main_v27 : IVec S_ 1 := (fun x v => Host.reduce IntOp.andi x v reducesTo_S16384x1_S_d0_1 h_S_) main_v26 main_c_9
  let main_v28 : IVec S_ 1 := andi main_v23 main_v27
  let main_v29 : FVec F S512x2049 .f32 := Host.absf main_arg6
  let main_cst_10 : FVec F S_ .f32 := constant S_ .f32 0x7F800000#32
  let main_v30 : FVec F S512x2049 .f32 := broadcastInDim S512x2049 ![] bcast_S_S512x2049 main_cst_10
  let main_v31 : IVec S512x2049 1 := cmpf .olt main_v29 main_v30
  let main_c_11 : IVec S_ 1 := constantI S_ 1 1#1
  let main_v32 : IVec S_ 1 := (fun x v => Host.reduce IntOp.andi x v reducesTo_S512x2049_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x512 .f32) (main_arg1 : FVec F S16384x512 .f32) (main_arg2 : FVec F S16384x512 .f32) (main_arg3 : FVec F S16384x512 .f32) (main_arg4 : FVec F S16384x1 .f32) (main_arg5 : FVec F S16384x1 .f32) (main_arg6 : FVec F S512x2049 .f32) (main_arg7 : FVec F S512x2049 .f32) (main_arg8 : FVec F S512x2049 .f32) (main_arg9 : FVec F S2049 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S16384x512 .f32 := Host.absf main_arg3
  let main_cst_4 : FVec F S_ .f32 := constant S_ .f32 0x7F800000#32
  let main_v15 : FVec F S16384x512 .f32 := broadcastInDim S16384x512 ![] bcast_S_S16384x512 main_cst_4
  let main_v16 : IVec S16384x512 1 := cmpf .olt main_v14 main_v15
  fn_part1 (F := F) main_arg4 main_arg5 main_arg6 main_arg7 main_arg8 main_arg9 main_v13 main_v16
-- ==== Kernel.lean ====
abbrev S16384x512 : Shape := ⟨2, ![16384, 512]⟩
abbrev S16384x1 : Shape := ⟨2, ![16384, 1]⟩
abbrev S512x2049 : Shape := ⟨2, ![512, 2049]⟩
abbrev S2049 : Shape := ⟨1, ![2049]⟩
abbrev S512x2048 : Shape := ⟨2, ![512, 2048]⟩
abbrev S512x1 : Shape := ⟨2, ![512, 1]⟩
abbrev S512 : Shape := ⟨1, ![512]⟩
abbrev S1x512 : Shape := ⟨2, ![1, 512]⟩
abbrev S2048 : Shape := ⟨1, ![2048]⟩
abbrev S1x2048 : Shape := ⟨2, ![1, 2048]⟩
abbrev S1 : Shape := ⟨1, ![1]⟩
abbrev S1x1 : Shape := ⟨2, ![1, 1]⟩
abbrev S512x512 : Shape := ⟨2, ![512, 512]⟩

abbrev nBuf : Space → Nat
  | .hbm => 32
  | .vmem => 26
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x1, .f32⟩
  | .hbm, ⟨5, _⟩ => ⟨S16384x1, .f32⟩
  | .hbm, ⟨6, _⟩ => ⟨S512x2049, .f32⟩
  | .hbm, ⟨7, _⟩ => ⟨S512x2049, .f32⟩
  | .hbm, ⟨8, _⟩ => ⟨S512x2049, .f32⟩
  | .hbm, ⟨9, _⟩ => ⟨S2049, .f32⟩
  | .hbm, ⟨10, _⟩ => ⟨S512x2048, .f32⟩
  | .hbm, ⟨11, _⟩ => ⟨S512x2048, .bf16⟩
  | .hbm, ⟨12, _⟩ => ⟨S512x1, .f32⟩
  | .hbm, ⟨13, _⟩ => ⟨S512, .f32⟩
  | .hbm, ⟨14, _⟩ => ⟨S1x512, .f32⟩
  | .hbm, ⟨15, _⟩ => ⟨S512x2048, .f32⟩
  | .hbm, ⟨16, _⟩ => ⟨S512x2048, .bf16⟩
  | .hbm, ⟨17, _⟩ => ⟨S512x1, .f32⟩
  | .hbm, ⟨18, _⟩ => ⟨S512, .f32⟩
  | .hbm, ⟨19, _⟩ => ⟨S1x512, .f32⟩
  | .hbm, ⟨20, _⟩ => ⟨S512x2048, .f32⟩
  | .hbm, ⟨21, _⟩ => ⟨S512x2048, .bf16⟩
  | .hbm, ⟨22, _⟩ => ⟨S512x1, .f32⟩
  | .hbm, ⟨23, _⟩ => ⟨S512, .f32⟩
  | .hbm, ⟨24, _⟩ => ⟨S1x512, .f32⟩
  | .hbm, ⟨25, _⟩ => ⟨S2048, .f32⟩
  | .hbm, ⟨26, _⟩ => ⟨S1x2048, .f32⟩
  | .hbm, ⟨27, _⟩ => ⟨S1, .f32⟩
  | .hbm, ⟨28, _⟩ => ⟨S1x1, .f32⟩
  | .hbm, ⟨29, _⟩ => ⟨S16384x512, .f32⟩
  | .hbm, ⟨30, _⟩ => ⟨S16384x512, .f32⟩
  | .hbm, ⟨31, _⟩ => ⟨S16384x1, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x2048, .f32⟩
  | .local _ .vmem, ⟨19, _⟩ => ⟨S1x1, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x1, .f32⟩
  | .local _ .vmem, ⟨25, _⟩ => ⟨S512x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev main_v19_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  slices_S512x2049_S512x2048_0_0 : S512x2049.Slices ![0, 0] S512x2048
  bitsLt_bf16_f32 : FTy.bits .bf16 < FTy.bits .f32
  slices_S512x2049_S512x1_0_2048 : S512x2049.Slices ![0, 2048] S512x1
  shapeCasts_S512x1_S512 : S512x1.ShapeCasts S512
  shapeCasts_S512_S1x512 : S512.ShapeCasts S1x512
  slices_S2049_S2048_0 : S2049.Slices ![0] S2048
  shapeCasts_S2048_S1x2048 : S2048.ShapeCasts S1x2048
  slices_S2049_S1_2048 : S2049.Slices ![2048] S1
  shapeCasts_S1_S1x1 : S1.ShapeCasts S1x1
  inb_S512x512_S512x512_0_0 : ∀ a, (![0, 0] : Fin 2 → Nat) a + S512x512.size a ≤ S512x512.size a
  h_S512x512 : 0 < S512x512.numel
  inb_S512x1_S512x1_0_0 : ∀ a, (![0, 0] : Fin 2 → Nat) a + S512x1.size a ≤ S512x1.size a
  h_S512x1 : 0 < S512x1.numel
  broadcasts_S512x1_S512x512 : S512x1.Broadcasts S512x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  reduces_S512x512_S512 : S512x512.Reduces [1] S512
  shapeCasts_S512_S512x1 : S512.ShapeCasts S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S16384x512.size a
  hwx0_2 : ∀ i : grid0.Coords, EltTy.bits .f32 = 32 ∨ (Rect.block (s := S16384x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S16384x512.size a
  hwx0_3 : ∀ i : grid0.Coords, EltTy.bits .f32 = 32 ∨ (Rect.block (s := S16384x512) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S16384x1.size a
  hwx0_4 : ∀ i : grid0.Coords, EltTy.bits .f32 = 32 ∨ (Rect.block (s := S16384x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S16384x1.size a
  hwx0_5 : ∀ i : grid0.Coords, EltTy.bits .f32 = 32 ∨ (Rect.block (s := S16384x1) S512x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x2048.size a ≤ S512x2048.size a
  hwx0_6 : ∀ i : grid0.Coords, EltTy.bits .bf16 = 32 ∨ (Rect.block (s := S512x2048) S512x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x2048.size a ≤ S512x2048.size a
  hwx0_7 : ∀ i : grid0.Coords, EltTy.bits .bf16 = 32 ∨ (Rect.block (s := S512x2048) S512x2048.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x2048.size a ≤ S512x2048.size a
  hwx0_8 : ∀ i : grid0.Coords, EltTy.bits .bf16 = 32 ∨ (Rect.block (s := S512x2048) S512x2048.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x2048.size a ≤ S1x2048.size a
  hwx0_12 : ∀ i : grid0.Coords, EltTy.bits .f32 = 32 ∨ (Rect.block (s := S1x2048) S1x2048.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1.size a ≤ S1x1.size a
  hwx0_13 : ∀ i : grid0.Coords, EltTy.bits .f32 = 32 ∨ (Rect.block (s := S1x1) S1x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x512.size a ≤ S16384x512.size a
  hwx0_14 : ∀ i : grid0.Coords, EltTy.bits .f32 = 32 ∨ (Rect.block (s := S16384x512) S512x512.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x512.size a ≤ S16384x512.size a
  hwx0_15 : ∀ i : grid0.Coords, EltTy.bits .f32 = 32 ∨ (Rect.block (s := S16384x512) S512x512.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x1.size a ≤ S16384x1.size a
  hwx0_16 : ∀ i : grid0.Coords, EltTy.bits .f32 = 32 ∨ (Rect.block (s := S16384x1) S512x1.size (cc0_transform_16 i) (hinb0_16 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S512x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S512x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S512x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v14) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v16) S1x2048.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v18) S1x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v19_0) S512x512.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v19_1) S512x512.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v19_2) S512x1.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S16384x512 : Shape := ⟨2, ![16384, 512]⟩
abbrev S16384x1 : Shape := ⟨2, ![16384, 1]⟩
abbrev S512x2049 : Shape := ⟨2, ![512, 2049]⟩
abbrev S2049 : Shape := ⟨1, ![2049]⟩
abbrev S16384x2049 : Shape := ⟨2, ![16384, 2049]⟩
abbrev S1x2049 : Shape := ⟨2, ![1, 2049]⟩
abbrev S_ : Shape := ⟨0, ![]⟩

abbrev nBuf : Space → Nat
  | .hbm => 101
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x1, .f32⟩
  | .hbm, ⟨5, _⟩ => ⟨S16384x1, .f32⟩
  | .hbm, ⟨6, _⟩ => ⟨S512x2049, .f32⟩
  | .hbm, ⟨7, _⟩ => ⟨S512x2049, .f32⟩
  | .hbm, ⟨8, _⟩ => ⟨S512x2049, .f32⟩
  | .hbm, ⟨9, _⟩ => ⟨S2049, .f32⟩
  | .hbm, ⟨10, _⟩ => ⟨S16384x2049, .f32⟩
  | .hbm, ⟨11, _⟩ => ⟨S16384x2049, .f32⟩
  | .hbm, ⟨12, _⟩ => ⟨S16384x2049, .f32⟩
  | .hbm, ⟨13, _⟩ => ⟨S16384x2049, .f32⟩
  | .hbm, ⟨14, _⟩ => ⟨S16384x2049, .f32⟩
  | .hbm, ⟨15, _⟩ => ⟨S16384x2049, .f32⟩
  | .hbm, ⟨16, _⟩ => ⟨S16384x2049, .f32⟩
  | .hbm, ⟨17, _⟩ => ⟨S16384x2049, .f32⟩
  | .hbm, ⟨18, _⟩ => ⟨S16384x2049, .f32⟩
  | .hbm, ⟨19, _⟩ => ⟨S1x2049, .f32⟩
  | .hbm, ⟨20, _⟩ => ⟨S16384x2049, .f32⟩
  | .hbm, ⟨21, _⟩ => ⟨S16384x2049, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S_, .f32⟩
  | .hbm, ⟨26, _⟩ => ⟨S16384x512, .f32⟩
  | .hbm, ⟨27, _⟩ => ⟨S16384x512, .f32⟩
  | .hbm, ⟨28, _⟩ => ⟨S_, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S_, .f32⟩
  | .hbm, ⟨35, _⟩ => ⟨S16384x512, .f32⟩
  | .hbm, ⟨36, _⟩ => ⟨S16384x512, .f32⟩
  | .hbm, ⟨37, _⟩ => ⟨S_, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S_, .f32⟩
  | .hbm, ⟨44, _⟩ => ⟨S16384x512, .f32⟩
  | .hbm, ⟨45, _⟩ => ⟨S16384x512, .f32⟩
  | .hbm, ⟨46, _⟩ => ⟨S_, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S16384x1, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S16384x512, .f32⟩
  | .hbm, ⟨76, _⟩ => ⟨S16384x512, .f32⟩
  | .hbm, ⟨77, _⟩ => ⟨S16384x512, .f32⟩
  | .hbm, ⟨78, _⟩ => ⟨S16384x1, .f32⟩
  | .hbm, ⟨79, _⟩ => ⟨S16384x512, .f32⟩
  | .hbm, ⟨80, _⟩ => ⟨S16384x512, .f32⟩
  | .hbm, ⟨81, _⟩ => ⟨S16384x512, .f32⟩
  | .hbm, ⟨82, _⟩ => ⟨S16384x1, .f32⟩
  | .hbm, ⟨83, _⟩ => ⟨S16384x512, .f32⟩
  | .hbm, ⟨84, _⟩ => ⟨S16384x512, .f32⟩
  | .hbm, ⟨85, _⟩ => ⟨S16384x512, .f32⟩
  | .hbm, ⟨86, _⟩ => ⟨S16384x512, .f32⟩
  | .hbm, ⟨87, _⟩ => ⟨S16384x512, .f32⟩
  | .hbm, ⟨88, _⟩ => ⟨S16384x1, .f32⟩
  | .hbm, ⟨89, _⟩ => ⟨S16384x512, .f32⟩
  | .hbm, ⟨90, _⟩ => ⟨S16384x512, .f32⟩
  | .hbm, ⟨91, _⟩ => ⟨S16384x1, .f32⟩
  | .hbm, ⟨92, _⟩ => ⟨S16384x1, .f32⟩
  | .hbm, ⟨93, _⟩ => ⟨S16384x512, .f32⟩
  | .hbm, ⟨94, _⟩ => ⟨S16384x512, .f32⟩
  | .hbm, ⟨95, _⟩ => ⟨S16384x512, .f32⟩
  | .hbm, ⟨96, _⟩ => ⟨S16384x512, .f32⟩
  | .hbm, ⟨97, _⟩ => ⟨S16384x512, .f32⟩
  | .hbm, ⟨98, _⟩ => ⟨S16384x1, .f32⟩
  | .hbm, ⟨99, _⟩ => ⟨S16384x1, .f32⟩
  | .hbm, ⟨100, _⟩ => ⟨S16384x1, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_cst_9 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_v42 : Ref sig .tc := ⟨.hbm, 68, rfl⟩
abbrev main_cst_10 : Ref sig .tc := ⟨.hbm, 69, rfl⟩
abbrev main_v43 : Ref sig .tc := ⟨.hbm, 70, rfl⟩
abbrev main_v44 : Ref sig .tc := ⟨.hbm, 71, rfl⟩
abbrev main_cst_11 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩

abbrev nD : Nat := 1
abbrev τ : Topo := Topo.v7x

variable {F : FTy → Type} [FloatOps F]

class Facts₀ : Prop where
  bcast_S16384x1_S16384x2049_0_1 : S16384x1.BroadcastsInDim S16384x2049 (![0, 1] : Fin 2 → Fin S16384x2049.rank)
  bcast_S2049_S1x2049_1 : S2049.BroadcastsInDim S1x2049 (![1] : Fin 1 → Fin S1x2049.rank)
  bcast_S1x2049_S16384x2049_0_1 : S1x2049.BroadcastsInDim S16384x2049 (![0, 1] : Fin 2 → Fin S16384x2049.rank)
  slices_S16384x2049_S16384x512_0_0 : S16384x2049.Slices ![0, 0] S16384x512
  bcast_S_S16384x512 : S_.BroadcastsInDim S16384x512 (![] : Fin 0 → Fin S16384x512.rank)
  slices_S16384x2049_S16384x512_0_512 : S16384x2049.Slices ![0, 512] S16384x512
  slices_S16384x2049_S16384x512_0_1024 : S16384x2049.Slices ![0, 1024] S16384x512
  slices_S16384x2049_S16384x512_0_1536 : S16384x2049.Slices ![0, 1536] S16384x512
  slices_S16384x2049_S16384x1_0_2048 : S16384x2049.Slices ![0, 2048] S16384x1
  bcast_S_S16384x1 : S_.BroadcastsInDim S16384x1 (![] : Fin 0 → Fin S16384x1.rank)
  bcast_S16384x1_S16384x512_0_1 : S16384x1.BroadcastsInDim S16384x512 (![0, 1] : Fin 2 → Fin S16384x512.rank)
  dot_S16384x512_S512x2049_S16384x2049_1_0_0_1_n_n_wf : DotDims.WF S16384x512 S512x2049 S16384x2049 [1] [0] [0] [1] [] []

variable [Facts₀]

def dot_S16384x512_S512x2049_S16384x2049_1_0_0_1_n_n : DotDims S16384x512 S512x2049 S16384x2049 where
  lhsContracting := [1]
  rhsContracting := [0]
  lhsNonContracting := [0]
  rhsNonContracting := [1]
  lhsBatch := []
  rhsBatch := []
  wf := dot_S16384x512_S512x2049_S16384x2049_1_0_0_1_n_n_wf

class Facts : Prop extends Facts₀ where

variable [Facts]
-- ==== Proof.CellSpec.lean ====
/-
  One step of a hierarchical multiscale LSTM cell, entry by entry, over the extended reals.

  The step takes the cell state `c`, the hidden states of the layer below, of this layer and of the layer above
  (`hb`, `h`, `ht`), the two boundary indicators `z` and `zb` (one column each), three weight matrices with
  `4 * 512 + 1` columns and a bias vector. Row `p` and column `q` of the gate pre-activations is

    pre p q = ∑ k, h (p, k) * U11 (k, q) + z p * ∑ k, ht (p, k) * U21 (k, q) + zb p * ∑ k, hb (p, k) * W01 (k, q) + bias q.

  Its first four groups of 512 columns feed the forget, input and output gates (through the logistic function) and
  the candidate (through tanh); its last column feeds the boundary detector (a hard sigmoid, then rounding to the
  nearest integer, ties to even). The new cell state, hidden state and boundary indicator are pointwise functions
  of those and of `c`, `h`, `z`, `zb`.

  Also here: the three facts about extended reals that the two programs' different spellings need —
  the three constants' values, that a finite factor moves across a finite sum of finite products, and that a number
  between zero and one plus (its rounding minus itself) is its rounding.
-/
import Idealize.ShloMosaic.PureOps.Ideal.Laws
import Idealize.ShloMosaic.Lib.ValueIdx

noncomputable section

open scoped BigOperators
open Idealize.ShloMosaic Idealize.ShloMosaic.ValueIdx

namespace Cert.CellSpec

/-- The shapes of the arguments: activations, indicator columns, weights, bias. -/
abbrev SAct : Shape := ⟨2, ![16384, 512]⟩
abbrev SInd : Shape := ⟨2, ![16384, 1]⟩
abbrev SWgt : Shape := ⟨2, ![512, 2049]⟩
abbrev SBias : Shape := ⟨1, ![2049]⟩

/-- The three f32 words both programs spell: 1.0, 2.0 and 0.0. -/
abbrev one : EReal := Ideal.ofBits .f32 0x3F800000#32
abbrev two : EReal := Ideal.ofBits .f32 0x40000000#32
abbrev zero : EReal := Ideal.ofBits .f32 0x00000000#32

theorem one_eq : one = 1 := by
  show Ideal.ofBits .f32 0x3F800000#32 = 1
  simp [Ideal.ofBits, Ideal.ieee]
  rw [← EReal.coe_mul, ← EReal.coe_one]
  exact congrArg _ (by norm_num)
theorem two_eq : two = ((2 : ℝ) : EReal) := by
  show Ideal.ofBits .f32 0x40000000#32 = _
  simp [Ideal.ofBits, Ideal.ieee]
  rw [← EReal.coe_mul]
  exact congrArg _ (by norm_num)
theorem zero_eq : zero = 0 := Ideal.ofBits_zero_f32

/-- The ten argument arrays, in the order the programs take them. -/
structure Args where
  c : SAct.Idx → EReal
  hb : SAct.Idx → EReal
  h : SAct.Idx → EReal
  ht : SAct.Idx → EReal
  z : SInd.Idx → EReal
  zb : SInd.Idx → EReal
  U11 : SWgt.Idx → EReal
  U21 : SWgt.Idx → EReal
  W01 : SWgt.Idx → EReal
  bias : SBias.Idx → EReal

variable (A : Args)

/-- The gate pre-activation of row `p`, column `q`: the recurrent product, the top-down product gated by `z`,
    the bottom-up product gated by `zb`, and the bias, added in this order. -/
def pre (p : Fin 16384) (q : Fin 2049) : EReal :=
  (((∑ k : Fin 512, A.h (ix2 p k) * A.U11 (ix2 k q))
      + A.z (ix2 p (0 : Fin 1)) * ∑ k : Fin 512, A.ht (ix2 p k) * A.U21 (ix2 k q))
      + A.zb (ix2 p (0 : Fin 1)) * ∑ k : Fin 512, A.hb (ix2 p k) * A.W01 (ix2 k q))
    + A.bias (ix1 q)

/-- The columns of the forget gate, the input gate, the output gate, the candidate, and the boundary column. -/
def colF (q : Fin 512) : Fin 2049 := ⟨0 + q.val, by have := q.isLt; omega⟩
def colI (q : Fin 512) : Fin 2049 := ⟨512 + q.val, by have := q.isLt; omega⟩
def colO (q : Fin 512) : Fin 2049 := ⟨1024 + q.val, by have := q.isLt; omega⟩
def colG (q : Fin 512) : Fin 2049 := ⟨1536 + q.val, by have := q.isLt; omega⟩
def colZ : Fin 2049 := ⟨2048, by omega⟩

/-- The new cell state from the indicators, the old cell state and the forget, input and candidate pre-activations:
    a copy of the input where `z`, the old state where neither indicator, the usual update where only `zb`. -/
def cellOf (zv zbv cv f i g : EReal) : EReal :=
  (zv * (Ideal.logistic i * Ideal.tanh g) + ((one - zv) * (one - zbv)) * cv)
    + ((one - zv) * zbv) * (Ideal.logistic f * cv + Ideal.logistic i * Ideal.tanh g)

/-- The new hidden state from the indicators, the old hidden state, the output pre-activation and the new cell state. -/
def hiddenOf (zv zbv hv o cn : EReal) : EReal :=
  ((one - zv) * (one - zbv)) * hv + ((zv + (one - zv) * zbv) * Ideal.logistic o) * Ideal.tanh cn

/-- The hard sigmoid of the boundary pre-activation: `(x * 1 + 1) / 2` clipped to `[0, 1]`. -/
def boundaryHat (x : EReal) : EReal := min one (max zero (Ideal.div (x * one + one) two))

/-- The new boundary indicator: the hard sigmoid rounded to the nearest integer, ties to even. -/
def boundaryOf (x : EReal) : EReal := Ideal.liftRound Ideal.roundHalfEven (boundaryHat x)

/-- The new cell state at row `p`, column `q`. -/
def cNew (p : Fin 16384) (q : Fin 512) : EReal :=
  cellOf (A.z (ix2 p (0 : Fin 1))) (A.zb (ix2 p (0 : Fin 1))) (A.c (ix2 p q))
    (pre A p (colF q)) (pre A p (colI q)) (pre A p (colG q))

/-- The new hidden state at row `p`, column `q`. -/
def hNew (p : Fin 16384) (q : Fin 512) : EReal :=
  hiddenOf (A.z (ix2 p (0 : Fin 1))) (A.zb (ix2 p (0 : Fin 1))) (A.h (ix2 p q)) (pre A p (colO q)) (cNew A p q)

/-- The new boundary indicator of row `p`. -/
def zNew (p : Fin 16384) : EReal := boundaryOf (pre A p colZ)

/-- The three results as whole arrays. -/
def cNewArr : SAct.Idx → EReal := fun i => cNew A (i 0) (i 1)
def hNewArr : SAct.Idx → EReal := fun i => hNew A (i 0) (i 1)
def zNewArr : SInd.Idx → EReal := fun i => zNew A (i 0)

/-! ## Three facts about the extended reals -/

/-- The coercion of the reals commutes with a finite sum. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite factor moves across a finite sum of products of finite numbers. -/
theorem sum_scale {n : ℕ} (zv : EReal) (a b : Fin n → EReal) (hz : ∃ r : ℝ, zv = r) (ha : ∀ k, ∃ r : ℝ, a k = r)
    (hb : ∀ k, ∃ r : ℝ, b k = r) : ∑ k : Fin n, (zv * a k) * b k = zv * ∑ k : Fin n, a k * b k := by
  obtain ⟨r, rfl⟩ := hz
  choose a' ha' using ha
  choose b' hb' using hb
  simp only [ha', hb', ← EReal.coe_mul, ← coe_sum]
  rw [Finset.mul_sum]
  exact congrArg _ (Finset.sum_congr rfl fun k _ => by ring)

/-- The hard sigmoid is a real number (it lies between zero and one). -/
theorem boundaryHat_real (x : EReal) : ∃ r : ℝ, boundaryHat x = r := by
  unfold boundaryHat
  rw [one_eq, zero_eq]
  generalize Ideal.div (x * 1 + 1) two = y
  have h0 : (0 : EReal) ≤ min 1 (max 0 y) := le_min (by norm_num) (le_max_left _ _)
  have h1 : min 1 (max 0 y) ≤ (1 : EReal) := min_le_left _ _
  induction h : min (1 : EReal) (max 0 y) with
  | bot => rw [h] at h0; exact absurd h0 (by simp)
  | top =>
    rw [h] at h1
    have h2 : (1 : EReal) ≠ ⊤ := by rw [← EReal.coe_one]; exact EReal.coe_ne_top 1
    exact absurd (top_le_iff.mp h1) h2
  | coe r => exact ⟨r, rfl⟩

/-- Adding to the hard sigmoid the difference between its rounding and itself gives its rounding. -/
theorem straight_through (x : EReal) :
    boundaryHat x + (Ideal.liftRound Ideal.roundHalfEven (boundaryHat x) - boundaryHat x) = boundaryOf x := by
  unfold boundaryOf
  obtain ⟨r, hr⟩ := boundaryHat_real x
  rw [hr, Ideal.liftRound_coe, ← EReal.coe_sub, ← EReal.coe_add]
  exact congrArg _ (by ring)

/-- The logistic function spelled with the word `1.0`. -/
theorem logistic_spelled (x : EReal) : Ideal.div one (one + Ideal.exp (-x)) = Ideal.logistic x := by
  rw [one_eq]; rfl

end Cert.CellSpec

end
-- ==== Proof.RefIsSpec.lean ====
/-
  The reference program computes the multiscale LSTM step of `CellSpec`, entry by entry.

  The reference first forms the matrix of gate pre-activations (three matrix products, two of them scaled row by row
  by the boundary indicators, and the bias row), then cuts it into the four gate groups and the boundary column.
  Reading each operation of the program at an index `(p, q)` and identifying the composed index maps with the
  specification's columns gives, one after the other: the pre-activation, the three logistic gates and the
  candidate, the hard sigmoid of the boundary column, and from these the new cell state, the new hidden state and
  the new boundary indicator.
-/
import proofs.«149025_j45878840656512_2_alg».proof.Proof.Gen.ReferenceIdeal.Read
import proofs.«149025_j45878840656512_2_alg».proof.Proof.CellSpec
import Idealize.ShloMosaic.Lib.ValueIdx
import Idealize.ShloMosaic.PureOps.Ideal.Laws

noncomputable section

open scoped BigOperators
open Idealize.ShloMosaic Idealize.ShloMosaic.ValueIdx
open Cert.ReferenceIdeal Cert.ReferenceIdeal.Read Cert.CellSpec

namespace Cert.RefIsSpec

variable (x0 x1 x2 x3 : (⟨S16384x512, .f32⟩ : BufTy).Contents (Elt Ideal))
  (x4 x5 : (⟨S16384x1, .f32⟩ : BufTy).Contents (Elt Ideal))
  (x6 x7 x8 : (⟨S512x2049, .f32⟩ : BufTy).Contents (Elt Ideal))
  (x9 : (⟨S2049, .f32⟩ : BufTy).Contents (Elt Ideal))

/-- The ten arrays, in the programs' order, as the specification's bundle of arguments. -/
abbrev args : Args := ⟨x0, x1, x2, x3, x4, x5, x6, x7, x8, x9⟩

/-- The pre-activation matrix of the reference at row `p`, column `q`, is the specification's. -/
theorem pre_eq (p : Fin 16384) (q : Fin 2049) :
    val_main_v11 (F := Ideal) x1 x2 x3 x4 x5 x6 x7 x8 x9 (ix2 p q) = pre (args x0 x1 x2 x3 x4 x5 x6 x7 x8 x9) p q := by
  have l0 : ∀ k : Fin 512, lidx_main_v0 (ix2 p q) k = ix2 p k := fun k =>
    funext fun a => Fin.ext (by match a with | ⟨0, _⟩ => rfl | ⟨1, _⟩ => rfl)
  have r0 : ∀ k : Fin 512, ridx_main_v0 (ix2 p q) k = ix2 k q := fun k =>
    funext fun a => Fin.ext (by match a with | ⟨0, _⟩ => rfl | ⟨1, _⟩ => rfl)
  have l1 : ∀ k : Fin 512, lidx_main_v1 (ix2 p q) k = ix2 p k := fun k =>
    funext fun a => Fin.ext (by match a with | ⟨0, _⟩ => rfl | ⟨1, _⟩ => rfl)
  have r1 : ∀ k : Fin 512, ridx_main_v1 (ix2 p q) k = ix2 k q := fun k =>
    funext fun a => Fin.ext (by match a with | ⟨0, _⟩ => rfl | ⟨1, _⟩ => rfl)
  have l4 : ∀ k : Fin 512, lidx_main_v4 (ix2 p q) k = ix2 p k := fun k =>
    funext fun a => Fin.ext (by match a with | ⟨0, _⟩ => rfl | ⟨1, _⟩ => rfl)
  have r4 : ∀ k : Fin 512, ridx_main_v4 (ix2 p q) k = ix2 k q := fun k =>
    funext fun a => Fin.ext (by match a with | ⟨0, _⟩ => rfl | ⟨1, _⟩ => rfl)
  have e2 : idx_main_v2 (ix2 p q) = ix2 p (0 : Fin 1) :=
    funext fun a => Fin.ext (by match a with | ⟨0, _⟩ => rfl | ⟨1, _⟩ => rfl)
  have e5 : idx_main_v5 (ix2 p q) = ix2 p (0 : Fin 1) :=
    funext fun a => Fin.ext (by match a with | ⟨0, _⟩ => rfl | ⟨1, _⟩ => rfl)
  have e9 : idx_main_v9 (idx_main_v10 (ix2 p q)) = ix1 q :=
    funext fun a => Fin.ext (by match a with | ⟨0, _⟩ => rfl)
  rw [val_main_v11_apply, val_main_v8_apply, val_main_v7_apply, val_main_v0_apply, val_main_v3_apply,
    val_main_v2_apply, val_main_v1_apply, val_main_v6_apply, val_main_v5_apply, val_main_v4_apply,
    val_main_v10_apply, val_main_v9_apply]
  simp only [l0, r0, l1, r1, l4, r4, e2, e5, e9, Ideal.addf_def, Ideal.mulf_def]
  rfl

/-- The forget gate: the logistic function of the first group of columns. -/
theorem gateF_eq (p : Fin 16384) (q : Fin 512) :
    val_main_v18 (F := Ideal) x1 x2 x3 x4 x5 x6 x7 x8 x9 (ix2 p q) = Ideal.logistic (pre (args x0 x1 x2 x3 x4 x5 x6 x7 x8 x9) p (colF q)) := by
  have e : idx_main_v12 (ix2 p q) = ix2 p (colF q) :=
    funext fun a => Fin.ext (by match a with | ⟨0, _⟩ => rfl | ⟨1, _⟩ => exact (Nat.zero_add q.val).symm)
  rw [val_main_v18_apply, val_main_v17_apply, val_main_cst_0_apply, val_main_v16_apply, val_main_v15_apply,
    val_main_cst_apply, val_main_v14_apply, val_main_v13_apply, val_main_v12_apply, e, pre_eq x0]
  simp only [Ideal.ofBits_def, Ideal.addf_def, Ideal.hostDivf_def, Ideal.hostUnary_exp_def, Ideal.hostNegf_def,
    Ideal.negf_def]
  exact logistic_spelled _

/-- The input gate: the logistic function of the second group of columns. -/
theorem gateI_eq (p : Fin 16384) (q : Fin 512) :
    val_main_v25 (F := Ideal) x1 x2 x3 x4 x5 x6 x7 x8 x9 (ix2 p q) = Ideal.logistic (pre (args x0 x1 x2 x3 x4 x5 x6 x7 x8 x9) p (colI q)) := by
  have e : idx_main_v19 (ix2 p q) = ix2 p (colI q) :=
    funext fun a => Fin.ext (by match a with | ⟨0, _⟩ => rfl | ⟨1, _⟩ => rfl)
  rw [val_main_v25_apply, val_main_v24_apply, val_main_cst_2_apply, val_main_v23_apply, val_main_v22_apply,
    val_main_cst_1_apply, val_main_v21_apply, val_main_v20_apply, val_main_v19_apply, e, pre_eq x0]
  simp only [Ideal.ofBits_def, Ideal.addf_def, Ideal.hostDivf_def, Ideal.hostUnary_exp_def, Ideal.hostNegf_def,
    Ideal.negf_def]
  exact logistic_spelled _

/-- The output gate: the logistic function of the third group of columns. -/
theorem gateO_eq (p : Fin 16384) (q : Fin 512) :
    val_main_v32 (F := Ideal) x1 x2 x3 x4 x5 x6 x7 x8 x9 (ix2 p q) = Ideal.logistic (pre (args x0 x1 x2 x3 x4 x5 x6 x7 x8 x9) p (colO q)) := by
  have e : idx_main_v26 (ix2 p q) = ix2 p (colO q) :=
    funext fun a => Fin.ext (by match a with | ⟨0, _⟩ => rfl | ⟨1, _⟩ => rfl)
  rw [val_main_v32_apply, val_main_v31_apply, val_main_cst_4_apply, val_main_v30_apply, val_main_v29_apply,
    val_main_cst_3_apply, val_main_v28_apply, val_main_v27_apply, val_main_v26_apply, e, pre_eq x0]
  simp only [Ideal.ofBits_def, Ideal.addf_def, Ideal.hostDivf_def, Ideal.hostUnary_exp_def, Ideal.hostNegf_def,
    Ideal.negf_def]
  exact logistic_spelled _

/-- The candidate: the hyperbolic tangent of the fourth group of columns. -/
theorem cand_eq (p : Fin 16384) (q : Fin 512) :
    val_main_v34 (F := Ideal) x1 x2 x3 x4 x5 x6 x7 x8 x9 (ix2 p q) = Ideal.tanh (pre (args x0 x1 x2 x3 x4 x5 x6 x7 x8 x9) p (colG q)) := by
  have e : idx_main_v33 (ix2 p q) = ix2 p (colG q) :=
    funext fun a => Fin.ext (by match a with | ⟨0, _⟩ => rfl | ⟨1, _⟩ => rfl)
  rw [val_main_v34_apply, val_main_v33_apply, e, pre_eq x0]
  rfl

/-- The input gate times the candidate. -/
theorem inCand_eq (p : Fin 16384) (q : Fin 512) :
    val_main_v47 (F := Ideal) x1 x2 x3 x4 x5 x6 x7 x8 x9 (ix2 p q)
      = Ideal.logistic (pre (args x0 x1 x2 x3 x4 x5 x6 x7 x8 x9) p (colI q)) * Ideal.tanh (pre (args x0 x1 x2 x3 x4 x5 x6 x7 x8 x9) p (colG q)) := by
  rw [val_main_v47_apply, gateI_eq x0, cand_eq x0]
  rfl

/-- The hard sigmoid of the boundary column: `(x * 1 + 1) / 2` clipped to `[0, 1]`. -/
theorem hat_eq (p : Fin 16384) :
    val_main_v42 (F := Ideal) x1 x2 x3 x4 x5 x6 x7 x8 x9 (ix2 p (0 : Fin 1)) = boundaryHat (pre (args x0 x1 x2 x3 x4 x5 x6 x7 x8 x9) p colZ) := by
  have e : idx_main_v35 (ix2 p (0 : Fin 1)) = ix2 p colZ :=
    funext fun a => Fin.ext (by match a with | ⟨0, _⟩ => rfl | ⟨1, _⟩ => rfl)
  rw [val_main_v42_apply, val_main_call0_v4_apply, val_main_call0_v3_apply, val_main_cst_9_apply,
    val_main_call0_v2_apply, val_main_call0_v1_apply, val_main_call0_v0_apply, val_main_cst_8_apply,
    val_main_v41_apply, val_main_v39_apply, val_main_v37_apply, val_main_v35_apply, e, pre_eq x0,
    val_main_v36_apply, val_main_cst_5_apply, val_main_v38_apply, val_main_cst_6_apply, val_main_v40_apply,
    val_main_cst_7_apply]
  rfl

/-- One minus the boundary indicator `z` of row `p`. -/
theorem notZ_eq (p : Fin 16384) :
    val_main_v44 (F := Ideal) x4 (ix2 p (0 : Fin 1)) = one - x4 (ix2 p (0 : Fin 1)) := by
  rw [val_main_v44_apply, val_main_v43_apply, val_main_cst_10_apply]
  rfl

/-- One minus the boundary indicator `zb` of row `p`. -/
theorem notZb_eq (p : Fin 16384) :
    val_main_v46 (F := Ideal) x5 (ix2 p (0 : Fin 1)) = one - x5 (ix2 p (0 : Fin 1)) := by
  rw [val_main_v46_apply, val_main_v45_apply, val_main_cst_11_apply]
  rfl

/-- The new cell state of the reference at row `p`, column `q`. -/
theorem cNew_at (p : Fin 16384) (q : Fin 512) :
    val_main_v59 (F := Ideal) x0 x1 x2 x3 x4 x5 x6 x7 x8 x9 (ix2 p q) = cNew (args x0 x1 x2 x3 x4 x5 x6 x7 x8 x9) p q := by
  have e48 : idx_main_v48 (ix2 p q) = ix2 p (0 : Fin 1) :=
    funext fun a => Fin.ext (by match a with | ⟨0, _⟩ => rfl | ⟨1, _⟩ => rfl)
  have e51 : idx_main_v51 (ix2 p q) = ix2 p (0 : Fin 1) :=
    funext fun a => Fin.ext (by match a with | ⟨0, _⟩ => rfl | ⟨1, _⟩ => rfl)
  have e57 : idx_main_v57 (ix2 p q) = ix2 p (0 : Fin 1) :=
    funext fun a => Fin.ext (by match a with | ⟨0, _⟩ => rfl | ⟨1, _⟩ => rfl)
  rw [val_main_v59_apply, val_main_v53_apply, val_main_v49_apply, val_main_v48_apply, e48, inCand_eq x0,
    val_main_v52_apply, val_main_v51_apply, e51, val_main_v50_apply, notZ_eq, notZb_eq,
    val_main_v58_apply, val_main_v57_apply, e57, val_main_v54_apply, notZ_eq, val_main_v56_apply,
    val_main_v55_apply, gateF_eq x0, inCand_eq x0]
  rfl

/-- The new hidden state of the reference at row `p`, column `q`. -/
theorem hNew_at (p : Fin 16384) (q : Fin 512) :
    val_main_v69 (F := Ideal) x0 x1 x2 x3 x4 x5 x6 x7 x8 x9 (ix2 p q) = hNew (args x0 x1 x2 x3 x4 x5 x6 x7 x8 x9) p q := by
  have e61 : idx_main_v61 (ix2 p q) = ix2 p (0 : Fin 1) :=
    funext fun a => Fin.ext (by match a with | ⟨0, _⟩ => rfl | ⟨1, _⟩ => rfl)
  have e65 : idx_main_v65 (ix2 p q) = ix2 p (0 : Fin 1) :=
    funext fun a => Fin.ext (by match a with | ⟨0, _⟩ => rfl | ⟨1, _⟩ => rfl)
  rw [val_main_v69_apply, val_main_v62_apply, val_main_v61_apply, e61, val_main_v60_apply, notZ_eq, notZb_eq,
    val_main_v68_apply, val_main_v66_apply, val_main_v65_apply, e65, val_main_v64_apply, val_main_v63_apply,
    notZ_eq, gateO_eq x0, val_main_v67_apply, cNew_at]
  rfl

/-- The new boundary indicator of the reference at row `p`: the hard sigmoid plus (its rounding minus itself). -/
theorem zNew_at (p : Fin 16384) :
    val_main_v72 (F := Ideal) x1 x2 x3 x4 x5 x6 x7 x8 x9 (ix2 p (0 : Fin 1)) = zNew (args x0 x1 x2 x3 x4 x5 x6 x7 x8 x9) p := by
  rw [val_main_v72_apply, val_main_v71_apply, val_main_v70_apply, hat_eq x0]
  exact straight_through _

/-- The reference's first result is the specification's new cell state. -/
theorem cNew_eq : val_main_v59 (F := Ideal) x0 x1 x2 x3 x4 x5 x6 x7 x8 x9 = cNewArr (args x0 x1 x2 x3 x4 x5 x6 x7 x8 x9) := by
  funext i
  obtain ⟨p, q, rfl⟩ : ∃ (p : Fin 16384) (q : Fin 512), i = ix2 p q := ⟨i 0, i 1, eq_ix2 i⟩
  exact cNew_at x0 x1 x2 x3 x4 x5 x6 x7 x8 x9 p q

/-- The reference's second result is the specification's new hidden state. -/
theorem hNew_eq : val_main_v69 (F := Ideal) x0 x1 x2 x3 x4 x5 x6 x7 x8 x9 = hNewArr (args x0 x1 x2 x3 x4 x5 x6 x7 x8 x9) := by
  funext i
  obtain ⟨p, q, rfl⟩ : ∃ (p : Fin 16384) (q : Fin 512), i = ix2 p q := ⟨i 0, i 1, eq_ix2 i⟩
  exact hNew_at x0 x1 x2 x3 x4 x5 x6 x7 x8 x9 p q

/-- The reference's third result is the specification's new boundary indicator (whatever the old cell state). -/
theorem zNew_eq : val_main_v72 (F := Ideal) x1 x2 x3 x4 x5 x6 x7 x8 x9 = zNewArr (args x0 x1 x2 x3 x4 x5 x6 x7 x8 x9) := by
  funext i
  obtain ⟨p, q, rfl⟩ : ∃ (p : Fin 16384) (q : Fin 1), i = ix2 p q := ⟨i 0, i 1, eq_ix2 i⟩
  obtain rfl : q = 0 := Subsingleton.elim _ _
  exact zNew_at x0 x1 x2 x3 x4 x5 x6 x7 x8 x9 p

end Cert.RefIsSpec

end
-- ==== Proof.FiniteArgs.lean ====
/-
  Finiteness of the argument arrays, read off the certificate's precondition.

  The precondition says that the conjunction, over the ten argument arrays, of "every entry x has |x| < +∞" is true.
  Over the extended reals |x| is max x (-x), and max x (-x) < ⊤ holds exactly when x is neither ⊤ nor ⊥, that is,
  when x is a real number. A conjunction of one-bit words is 1 exactly when every word is 1, and a reduction by
  "and" over all axes that is 1 had a 1 at every entry. So every entry of every array is a real number; the six
  arrays stated below are the ones whose entries multiply or are multiplied.
-/
import proofs.«149025_j45878840656512_2_alg».proof.Defs
import proofs.«149025_j45878840656512_2_alg».proof.Proof.Gen.Pre_finite_inputs
import Idealize.ShloMosaic.Lib.ReduceAll
import Idealize.ShloMosaic.Lib.ValueIdx
import Idealize.ShloMosaic.PureOps.Ideal.Laws

namespace Cert.FiniteArgs

open Idealize.ShloMosaic Idealize.ShloMosaic.ValueIdx

/-- The f32 word 0x7F800000 is +∞. -/
theorem inf_eq_top : Ideal.ofBits .f32 0x7F800000#32 = (⊤ : EReal) := by simp [Ideal.ofBits, Ideal.ieee]

/-- An extended real whose absolute value max x (-x) compares below +∞ is a real number. -/
theorem real_of_abs_lt_inf (x : EReal)
    (h : Ideal.cmp .olt (max x (-x)) (Ideal.ofBits .f32 0x7F800000#32) = 1#1) : ∃ r : ℝ, x = (r : EReal) := by
  rw [inf_eq_top] at h
  induction x using EReal.rec with
  | bot => simp [Ideal.cmp] at h
  | coe r => exact ⟨r, rfl⟩
  | top => simp [Ideal.cmp] at h

/-- There is one index of rank zero. -/
instance subsingleton_scalarIdx : Subsingleton (⟨0, ![]⟩ : Shape).Idx := ⟨fun a b => funext fun d => d.elim0⟩

/-- One array, any shape: if the reduction by "and", over all axes, of the words |x i| < +∞ is 1,
    then every entry of x is a real number. -/
theorem all_real_of_reduce {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel) (j : (⟨0, ![]⟩ : Shape).Idx)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr hu j = 1#1) :
    ∀ i, ∃ r : ℝ, x i = (r : EReal) := by
  intro i
  have h := Host.reduce_andi_all _ _ hr hu j e i
  exact real_of_abs_lt_inf (x i) h

open Cert.Pre_finite_inputs in
/-- The printed conjunction over ten arrays: if it is 1, the entries of the second, fourth, fifth, sixth, eighth and
    ninth arrays are real numbers. -/
theorem finite_of_fn [Cert.Pre_finite_inputs.Facts]
    (x0 x1 x2 x3 : FVec Ideal S16384x512 .f32) (x4 x5 : FVec Ideal S16384x1 .f32)
    (x6 x7 x8 : FVec Ideal S512x2049 .f32) (x9 : FVec Ideal S2049 .f32)
    (h : Cert.Pre_finite_inputs.fn (F := Ideal) x0 x1 x2 x3 x4 x5 x6 x7 x8 x9 = (fun _ => 1#1)) :
    (∀ i, ∃ r : ℝ, x1 i = (r : EReal)) ∧ (∀ i, ∃ r : ℝ, x3 i = (r : EReal)) ∧ (∀ i, ∃ r : ℝ, x4 i = (r : EReal))
      ∧ (∀ i, ∃ r : ℝ, x5 i = (r : EReal)) ∧ (∀ i, ∃ r : ℝ, x7 i = (r : EReal)) ∧ (∀ i, ∃ r : ℝ, x8 i = (r : EReal)) := by
  have h0 := congrFun h ix0
  dsimp only [Cert.Pre_finite_inputs.fn, Cert.Pre_finite_inputs.fn_part1, Cert.Pre_finite_inputs.fn_part2,
    Idealize.ShloMosaic.andi] at h0
  simp only [IntOp.andi_eq_one] at h0
  obtain ⟨⟨⟨⟨⟨⟨⟨⟨⟨_, h1⟩, _⟩, h3⟩, h4⟩, h5⟩, _⟩, h7⟩, h8⟩, _⟩ := h0
  exact ⟨all_real_of_reduce x1 _ _ _ _ h1, all_real_of_reduce x3 _ _ _ _ h3, all_real_of_reduce x4 _ _ _ _ h4,
    all_real_of_reduce x5 _ _ _ _ h5, all_real_of_reduce x7 _ _ _ _ h7, all_real_of_reduce x8 _ _ _ _ h8⟩

/-- The certificate's precondition on the idealized kernel's memory: on every device the second, fourth, fifth,
    sixth, eighth and ninth argument arrays hold real numbers. -/
theorem finite_args [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal))
      ∧ (∀ i, ∃ r : ℝ, m ((c.tc : Thread Cert.KernelIdeal.nD Cert.KernelIdeal.τ).loc Cert.KernelIdeal.main_arg7) i = (r : EReal))
      ∧ (∀ i, ∃ r : ℝ, m ((c.tc : Thread Cert.KernelIdeal.nD Cert.KernelIdeal.τ).loc Cert.KernelIdeal.main_arg8) i = (r : EReal)) :=
  finite_of_fn _ _ _ _ _ _ _ _ _ _ (hpre c)

end Cert.FiniteArgs
-- ==== Proof.LibMatmul.lean ====
/-
  A plain matrix product read at an entry, over the extended reals.

  A two-dimensional contraction `[M, K] × [K, N] → [M, N]` whose dimension numbers contract the left operand's
  second axis with the right operand's first, with no batch axis, accumulated into the zero matrix, has at the
  entry `(p, q)` the value `∑ k, lhs (p, k) * rhs (k, q)`: the textbook sum over the `K` positions of the
  contracted axis, with no order or grouping left in it.
-/
import Idealize.ShloMosaic.PureOps.Ideal.Laws
import Idealize.ShloMosaic.Lib.ValueIdx

noncomputable section

open scoped BigOperators
open Idealize.ShloMosaic Idealize.ShloMosaic.ValueIdx

namespace PlainMatmul

variable {M K N : ℕ}

/-- The dimension numbers of a plain product: rows times columns, one contracted axis, no batch axis. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank (h : IsPlain d) : d.contr.rank = 1 := by rw [d.rank_contr, h.lc]; rfl

theorem IsPlain.size (h : IsPlain d) : d.contr.size ⟨0, by rw [h.rank]; exact Nat.one_pos⟩ = K := by
  rw [d.size_contr 0 (by rw [h.lc]; exact Nat.one_pos)]
  simp only [h.lc]
  rfl

/-- The left operand is read at row `p` of the output entry … -/
theorem IsPlain.lhs_row (h : IsPlain d) (j : (⟨2, ![M, N]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- … and the right operand at column `q`. -/
theorem IsPlain.rhs_col (h : IsPlain d) (j : (⟨2, ![M, N]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- A plain product into the zero matrix, at the entry `(p, q)`, is the sum over the contracted axis of the
    products of the left operand's row `p` with the right operand's column `q`. -/
theorem apply {φ₁ φ₂ : FTy} (h : IsPlain d) (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, (lhs (ix2 p k) : EReal) * (rhs (ix2 k q) : EReal) := by
  rw [Ideal.matmul_constant_zero_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 k q := by
    funext a
    apply Fin.ext
    match a with
    | ⟨0, _⟩ => exact (d.rhsIdx_val_of_single h.rc _ _).trans (contrEquiv1_symm_val d K h.rank h.size k)
    | ⟨1, _⟩ => exact h.rhs_col _ _
  rw [hl, hr]

end PlainMatmul

end
-- ==== Proof.LibColumnLayout.lean ====
/-
  Three re-layings of a matrix's rows and columns read at an index `(p, c)`, for any extents `a`, `b`, over any element
  type (the sum over the extended reals):
  * a column `[a, 1]` repeated along `b` lanes reads, at `(p, c)`, the column's entry `(p, 0)`;
  * a vector `[a]` cast to a column `[a, 1]` reads, at `(p, 0)`, the vector's entry `p`;
  * the sum of a matrix `[a, b]` along its lanes reads, at row `p`, the sum over `c` of the entries `(p, c)`.
  Together they read a "sum over the lanes, keep the axis" at a row. They complete the library's forms for a row
  `[1, b]` repeated down `a` rows and a vector `[a]` cast to a row `[1, a]`.
-/
import Idealize.ShloMosaic.Lib.Pipeline.Value
import Idealize.ShloMosaic.Lib.ValueIdx
import Idealize.ShloMosaic.Lib.ValueLayout
import Idealize.ShloMosaic.PureOps.Ideal.Laws

noncomputable section

namespace Cert.ColumnLayout

open Idealize.ShloMosaic Idealize.ShloMosaic.ValueIdx

variable {α : Type}

/-- A column `[a, 1]` broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(p, u)`, the vector at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The sum of a matrix `[a, b]` along its second axis, started from the additive neutral word, read at row `p` over the
    extended reals: the sum over the lanes `c` of the entries `(p, c)`. -/
theorem laneSum_apply {a b : ℕ} (src : FVec Ideal ⟨2, ![a, b]⟩ .f32) (acc : BitVec FTy.f32.bits)
    (h : (⟨2, ![a, b]⟩ : Shape).Reduces [(1 : Fin 2)] ⟨1, ![a]⟩) (hφ : FKind.Formats .f32)
    (hacc : acc = FKind.add.neutral .f32 hφ) (p : Fin a) :
    multiReduction .add [(1 : Fin 2)] ⟨1, ![a]⟩ src acc h hφ hacc (ix1 p) = ∑ c : Fin b, src (ix2 p c) := by
  refine (Ideal.multiReduction_add_single src acc h hφ hacc (ix1 p)).trans ?_
  show ∑ c : Fin b, src (h.lift (ix1 p) c) = _
  refine Finset.sum_congr rfl fun c _ => congrArg src (funext fun d => Fin.ext ?_)
  match d with
  | ⟨0, _⟩ => rfl
  | ⟨1, _⟩ => rfl

end Cert.ColumnLayout

end
-- ==== Proof.KernelTile.lean ====
/-
  The kernel's body on one tile of 512 rows, read at an entry over the extended reals.

  The body takes the tile's blocks of the cell state, the three hidden states and the two indicator columns, the three
  weight matrices' first 2048 columns, their last column laid as a row, and the bias split the same way. Every
  value it stores is, entry by entry, one of the cell's pointwise functions of the specification applied to entries of
  the tile's pre-activation block `P` (512 rows, 2048 columns):

    P (y, q) = ∑ k, h (y, k) * U (k, q) + ∑ k, (z y * ht (y, k)) * V (k, q) + ∑ k, (zb y * hb (y, k)) * W (k, q) + b q,

  the indicator multiplied into the rows BEFORE the products (where the specification multiplies the finished sums),
  and of the boundary column, which the body computes apart as three sums along the rows.
-/
import proofs.«149025_j45878840656512_2_alg».proof.Proof.Gen.KernelIdeal.Skeleton
import proofs.«149025_j45878840656512_2_alg».proof.Proof.CellSpec
import proofs.«149025_j45878840656512_2_alg».proof.Proof.LibMatmul
import proofs.«149025_j45878840656512_2_alg».proof.Proof.LibColumnLayout
import Idealize.ShloMosaic.Lib.ValueLayout
import Idealize.ShloMosaic.Lib.ValueIdx
import Idealize.ShloMosaic.Lib.Pipeline.Value

noncomputable section

open scoped BigOperators
open Idealize.ShloMosaic Idealize.ShloMosaic.ValueIdx Cert.KernelIdeal Cert.KernelIdeal.Gen Cert.CellSpec

namespace Cert.KernelTile

/-- The three products of the body are plain ones: rows by columns, one contracted axis. -/
theorem dot_plain : PlainMatmul.IsPlain dot_S512x512_S512x2048_S512x2048_1_0_0_1_n_n := ⟨rfl, rfl, rfl, rfl, rfl, rfl⟩

/-- Column `o + q` of a block of 2048 columns. -/
abbrev lane (o : ℕ) (q : Fin 512) (ho : o + 512 ≤ 2048) : Fin 2048 := ⟨o + q.val, by have := q.isLt; omega⟩

/-- The tile's pre-activation entry, as the body forms it. -/
def tilePre (h hb ht : Vec Ideal S512x512 .f32) (z zb : Vec Ideal S512x1 .f32) (U V W : Vec Ideal S512x2048 .bf16)
    (b : Vec Ideal S1x2048 .f32) (y : Fin 512) (q : Fin 2048) : EReal :=
  (((∑ k : Fin 512, (h (ix2 y k) : EReal) * (U (ix2 k q) : EReal))
      + ∑ k : Fin 512, ((z (ix2 y (0 : Fin 1)) : EReal) * (ht (ix2 y k) : EReal)) * (V (ix2 k q) : EReal))
      + ∑ k : Fin 512, ((zb (ix2 y (0 : Fin 1)) : EReal) * (hb (ix2 y k) : EReal)) * (W (ix2 k q) : EReal))
    + (b (ix2 (0 : Fin 1) q) : EReal)

/-- The pre-activation block at an entry. -/
theorem pay4_apply (v1 v2 v3 : Vec Ideal S512x512 .f32) (v4 v5 : Vec Ideal S512x1 .f32) (v13 v16 v20 : Vec Ideal S512x2048 .bf16)
    (v24 : Vec Ideal S1x2048 .f32) (y : Fin 512) (q : Fin 2048) :
    k0_pay4 v1 v2 v3 v4 v5 v13 v16 v20 v24 (ix2 y q) = tilePre v1 v2 v3 v4 v5 v13 v16 v20 v24 y q := by
  have e1 := PlainMatmul.apply dot_plain none (truncf .bf16 v1 bitsLt_bf16_f32)
    (shapeCast S512x2048 v13 shapeCasts_S512x2048_S512x2048 : FVec Ideal S512x2048 .bf16) y q
  have e2 := PlainMatmul.apply dot_plain none
    (truncf .bf16 (mulf (broadcastTo S512x512 v4 broadcasts_S512x1_S512x512) v3) bitsLt_bf16_f32)
    (shapeCast S512x2048 v16 shapeCasts_S512x2048_S512x2048 : FVec Ideal S512x2048 .bf16) y q
  have e3 := PlainMatmul.apply dot_plain none
    (truncf .bf16 (mulf (broadcastTo S512x512 v5 broadcasts_S512x1_S512x512) v2) bitsLt_bf16_f32)
    (shapeCast S512x2048 v20 shapeCasts_S512x2048_S512x2048 : FVec Ideal S512x2048 .bf16) y q
  have e4 : broadcastTo S512x2048 (shapeCast S1x2048 v24 shapeCasts_S1x2048_S1x2048) broadcasts_S1x2048_S512x2048 (ix2 y q)
      = v24 (ix2 (0 : Fin 1) q) := by
    rw [broadcastTo_1b_ab_apply, shapeCast_self]
  have h2 : ∀ k : Fin 512, broadcastTo S512x512 v4 broadcasts_S512x1_S512x512 (ix2 y k) = v4 (ix2 y (0 : Fin 1)) :=
    fun k => Cert.ColumnLayout.broadcastTo_a1_ab_apply v4 _ y k
  have h3 : ∀ k : Fin 512, broadcastTo S512x512 v5 broadcasts_S512x1_S512x512 (ix2 y k) = v5 (ix2 y (0 : Fin 1)) :=
    fun k => Cert.ColumnLayout.broadcastTo_a1_ab_apply v5 _ y k
  unfold k0_pay4 tilePre
  refine congrArg₂ (· + ·) (congrArg₂ (· + ·) (congrArg₂ (· + ·) (e1.trans ?_) (e2.trans ?_)) (e3.trans ?_)) e4
  · refine Finset.sum_congr rfl fun k _ => ?_
    rw [shapeCast_self]; rfl
  · refine Finset.sum_congr rfl fun k _ => ?_
    rw [shapeCast_self]
    exact congrArg (· * (v16 (ix2 k q) : EReal)) (congrArg (· * (v3 (ix2 y k) : EReal)) (h2 k))
  · refine Finset.sum_congr rfl fun k _ => ?_
    rw [shapeCast_self]
    exact congrArg (· * (v20 (ix2 k q) : EReal)) (congrArg (· * (v2 (ix2 y k) : EReal)) (h3 k))

/-- The forget gate: the logistic function of the block's first 512 columns. -/
theorem pay6_apply (P : FVec Ideal S512x2048 .f32) (y q : Fin 512) :
    k0_pay6 P (ix2 y q) = Ideal.logistic (P (ix2 y (lane 0 q (by omega)))) :=
  congrArg Ideal.logistic (slice2_axis1_apply 0 P slices_S512x2048_o0_0_S512x512 y q (lane 0 q (by omega)) rfl)

/-- The output gate: the logistic function of columns 1024 to 1535. -/
theorem pay7_apply (P : FVec Ideal S512x2048 .f32) (y q : Fin 512) :
    k0_pay7 P (ix2 y q) = Ideal.logistic (P (ix2 y (lane 1024 q (by omega)))) :=
  congrArg Ideal.logistic (slice2_axis1_apply 1024 P slices_S512x2048_o0_1024_S512x512 y q (lane 1024 q (by omega)) rfl)

/-- The input gate times the candidate: columns 512 to 1023 through the logistic function, 1536 to 2047 through tanh. -/
theorem pay11_apply (P : FVec Ideal S512x2048 .f32) (y q : Fin 512) :
    k0_pay11 P (ix2 y q)
      = Ideal.logistic (P (ix2 y (lane 512 q (by omega)))) * Ideal.tanh (P (ix2 y (lane 1536 q (by omega)))) :=
  congrArg₂ (fun a b : EReal => Ideal.logistic a * Ideal.tanh b)
    (slice2_axis1_apply 512 P slices_S512x2048_o0_512_S512x512 y q (lane 512 q (by omega)) rfl)
    (slice2_axis1_apply 1536 P slices_S512x2048_o0_1536_S512x512 y q (lane 1536 q (by omega)) rfl)

/-- The new cell state the body stores, at an entry of the tile: the specification's pointwise function of the
    indicators, the old state and three entries of the pre-activation block. -/
theorem cell_tile (c : Vec Ideal S512x512 .f32) (z zb : Vec Ideal S512x1 .f32) (P : FVec Ideal S512x2048 .f32) (y q : Fin 512) :
    k0_pay1 c zb (k0_pay6 P) (k0_pay9 z) (k0_pay10 zb) (k0_pay11 P) (k0_pay12 z) (ix2 y q)
      = cellOf (z (ix2 y (0 : Fin 1))) (zb (ix2 y (0 : Fin 1))) (c (ix2 y q)) (P (ix2 y (lane 0 q (by omega))))
          (P (ix2 y (lane 512 q (by omega)))) (P (ix2 y (lane 1536 q (by omega)))) := by
  have b1 := Cert.ColumnLayout.broadcastTo_a1_ab_apply z broadcasts_S512x1_S512x512 y q
  have b2 := Cert.ColumnLayout.broadcastTo_a1_ab_apply (mulf (k0_pay9 z) (k0_pay10 zb)) broadcasts_S512x1_S512x512 y q
  have b3 := Cert.ColumnLayout.broadcastTo_a1_ab_apply (mulf (k0_pay9 z) zb) broadcasts_S512x1_S512x512 y q
  show ((broadcastTo S512x512 z broadcasts_S512x1_S512x512 (ix2 y q) * k0_pay11 P (ix2 y q)
        + broadcastTo S512x512 (mulf (k0_pay9 z) (k0_pay10 zb)) broadcasts_S512x1_S512x512 (ix2 y q) * c (ix2 y q))
      + broadcastTo S512x512 (mulf (k0_pay9 z) zb) broadcasts_S512x1_S512x512 (ix2 y q)
          * (k0_pay6 P (ix2 y q) * c (ix2 y q) + k0_pay11 P (ix2 y q)) : EReal) = _
  rw [b1, b2, b3, pay6_apply, pay11_apply]
  rfl

/-- The new hidden state the body stores, at an entry of the tile. -/
theorem hidden_tile (c h : Vec Ideal S512x512 .f32) (z zb : Vec Ideal S512x1 .f32) (P : FVec Ideal S512x2048 .f32) (y q : Fin 512) :
    k0_pay2 c h z zb (k0_pay6 P) (k0_pay7 P) (k0_pay9 z) (k0_pay10 zb) (k0_pay11 P) (k0_pay12 z) (ix2 y q)
      = hiddenOf (z (ix2 y (0 : Fin 1))) (zb (ix2 y (0 : Fin 1))) (h (ix2 y q)) (P (ix2 y (lane 1024 q (by omega))))
          (cellOf (z (ix2 y (0 : Fin 1))) (zb (ix2 y (0 : Fin 1))) (c (ix2 y q)) (P (ix2 y (lane 0 q (by omega))))
            (P (ix2 y (lane 512 q (by omega)))) (P (ix2 y (lane 1536 q (by omega))))) := by
  have b2 := Cert.ColumnLayout.broadcastTo_a1_ab_apply (mulf (k0_pay9 z) (k0_pay10 zb)) broadcasts_S512x1_S512x512 y q
  have b3 := Cert.ColumnLayout.broadcastTo_a1_ab_apply (addf z (mulf (k0_pay9 z) zb)) broadcasts_S512x1_S512x512 y q
  show (broadcastTo S512x512 (mulf (k0_pay9 z) (k0_pay10 zb)) broadcasts_S512x1_S512x512 (ix2 y q) * h (ix2 y q)
      + (broadcastTo S512x512 (addf z (mulf (k0_pay9 z) zb)) broadcasts_S512x1_S512x512 (ix2 y q) * k0_pay7 P (ix2 y q))
          * Ideal.tanh (k0_pay1 c zb (k0_pay6 P) (k0_pay9 z) (k0_pay10 zb) (k0_pay11 P) (k0_pay12 z) (ix2 y q)) : EReal) = _
  rw [b2, b3, pay7_apply, cell_tile]
  rfl

/-- One of the boundary column's three sums along a row: the row of a block against a weight column laid as a row. -/
theorem pay5_apply (v1 : Vec Ideal S512x512 .f32) (v28 : Vec Ideal S1x512 .f32) (y : Fin 512) :
    k0_pay5 v1 v28 (ix1 y) = ∑ k : Fin 512, (v1 (ix2 y k) : EReal) * (v28 (ix2 (0 : Fin 1) k) : EReal) := by
  refine (Cert.ColumnLayout.laneSum_apply _ _ reduces_S512x512_S512 (.inl rfl) rfl y).trans ?_
  refine Finset.sum_congr rfl fun k _ => ?_
  show (v1 (ix2 y k) : EReal) * broadcastTo S512x512 (shapeCast S1x512 v28 shapeCasts_S1x512_S1x512) broadcasts_S1x512_S512x512 (ix2 y k) = _
  rw [broadcastTo_1b_ab_apply, shapeCast_self]

/-- The boundary column's entry, as the body forms it. -/
def tileCol (hb h ht : Vec Ideal S512x512 .f32) (z zb : Vec Ideal S512x1 .f32) (u v w : Vec Ideal S1x512 .f32)
    (b : Vec Ideal S1x1 .f32) (y : Fin 512) : EReal :=
  (((∑ k : Fin 512, (h (ix2 y k) : EReal) * (u (ix2 (0 : Fin 1) k) : EReal))
      + (z (ix2 y (0 : Fin 1)) : EReal) * ∑ k : Fin 512, (ht (ix2 y k) : EReal) * (v (ix2 (0 : Fin 1) k) : EReal))
      + (zb (ix2 y (0 : Fin 1)) : EReal) * ∑ k : Fin 512, (hb (ix2 y k) : EReal) * (w (ix2 (0 : Fin 1) k) : EReal))
    + (b (ix2 (0 : Fin 1) (0 : Fin 1)) : EReal)

/-- The new boundary indicator the body stores, at a row of the tile. -/
theorem boundary_tile (hb h ht : Vec Ideal S512x512 .f32) (z zb : Vec Ideal S512x1 .f32) (u v w : Vec Ideal S1x512 .f32)
    (b : Vec Ideal S1x1 .f32) (y : Fin 512) (e : Fin 1) :
    k0_pay3 (k0_pay8 hb ht z zb (k0_pay5 h u) v w b) (ix2 y e) = boundaryOf (tileCol hb h ht z zb u v w b y) := by
  have he : e = 0 := Subsingleton.elim _ _
  subst he
  have s1 := Cert.ColumnLayout.shapeCast_a_a1_apply (k0_pay5 h u) shapeCasts_S512_S512x1 y (0 : Fin 1)
  have s2 := Cert.ColumnLayout.shapeCast_a_a1_apply (k0_pay5 ht v) shapeCasts_S512_S512x1 y (0 : Fin 1)
  have s3 := Cert.ColumnLayout.shapeCast_a_a1_apply (k0_pay5 hb w) shapeCasts_S512_S512x1 y (0 : Fin 1)
  have s4 : broadcastTo S512x1 (shapeCast S1x1 b shapeCasts_S1x1_S1x1) broadcasts_S1x1_S512x1 (ix2 y (0 : Fin 1))
      = b (ix2 (0 : Fin 1) (0 : Fin 1)) := by
    rw [broadcastTo_1b_ab_apply, shapeCast_self]
  rw [pay5_apply] at s1 s2 s3
  unfold boundaryOf boundaryHat tileCol
  rw [← s1, ← s2, ← s3, ← s4]
  rfl

end Cert.KernelTile

end
-- ==== Proof.PointIsSpec.lean ====
/-
  The kernel's body at one grid point computes the specification's rows of that point's tile.

  Grid point `t` works on rows `t * 512` to `t * 512 + 511`. Its fourteen blocks are entries of the argument
  arrays: the tile's rows of the cell state, the hidden states and the indicators, the weight matrices' first 2048
  columns, their last column laid as a row, and the bias split the same way. The body multiplies the indicator into
  the rows before the matrix product where the specification multiplies the finished sum; the two agree because a
  finite factor moves across a finite sum of products of finite numbers. From the pre-activations on, the body's
  stored values are the specification's pointwise functions of the same entries.
-/
import proofs.«149025_j45878840656512_2_alg».proof.Proof.KernelTile
import proofs.«149025_j45878840656512_2_alg».proof.Proof.CellSpec
import Idealize.ShloMosaic.Lib.ValueIdx

noncomputable section

open scoped BigOperators
open Idealize.ShloMosaic Idealize.ShloMosaic.ValueIdx Cert.KernelIdeal Cert.KernelIdeal.Gen Cert.CellSpec Cert.KernelTile

namespace Cert.PointIsSpec

/-- Row `y` of tile `t`. -/
def row (t : Fin 32) (y : Fin 512) : Fin 16384 := ⟨t.val * 512 + y.val, by have := t.isLt; have := y.isLt; omega⟩

/-- One of the first 2048 columns, as a column of the whole pre-activation matrix. -/
def col (q : Fin 2048) : Fin 2049 := ⟨q.val, by have := q.isLt; omega⟩

/-- The arrays that meet a boundary indicator in a product are finite. -/
structure Finite (A : Args) : Prop where
  hb : ∀ i, ∃ r : ℝ, A.hb i = (r : EReal)
  ht : ∀ i, ∃ r : ℝ, A.ht i = (r : EReal)
  z : ∀ i, ∃ r : ℝ, A.z i = (r : EReal)
  zb : ∀ i, ∃ r : ℝ, A.zb i = (r : EReal)
  U21 : ∀ i, ∃ r : ℝ, A.U21 i = (r : EReal)
  W01 : ∀ i, ∃ r : ℝ, A.W01 i = (r : EReal)

/-- The fourteen blocks of grid point `t` are the argument arrays' entries: the tile's rows of the activations and
    indicators, the weights' first 2048 columns, their last column laid as a row, the bias row and the bias corner. -/
structure TileOf (A : Args) (t : Fin 32) (x0 x1 x2 x3 : Vec Ideal S512x512 .f32) (x4 x5 : Vec Ideal S512x1 .f32)
    (x6 x7 x8 : Vec Ideal S512x2048 .bf16) (x9 x10 x11 : Vec Ideal S1x512 .f32) (x12 : Vec Ideal S1x2048 .f32)
    (x13 : Vec Ideal S1x1 .f32) : Prop where
  c : ∀ (y q : Fin 512), (x0 (ix2 y q) : EReal) = A.c (ix2 (row t y) q)
  hb : ∀ (y q : Fin 512), (x1 (ix2 y q) : EReal) = A.hb (ix2 (row t y) q)
  h : ∀ (y q : Fin 512), (x2 (ix2 y q) : EReal) = A.h (ix2 (row t y) q)
  ht : ∀ (y q : Fin 512), (x3 (ix2 y q) : EReal) = A.ht (ix2 (row t y) q)
  z : ∀ y : Fin 512, (x4 (ix2 y (0 : Fin 1)) : EReal) = A.z (ix2 (row t y) (0 : Fin 1))
  zb : ∀ y : Fin 512, (x5 (ix2 y (0 : Fin 1)) : EReal) = A.zb (ix2 (row t y) (0 : Fin 1))
  U : ∀ (k : Fin 512) (q : Fin 2048), (x6 (ix2 k q) : EReal) = A.U11 (ix2 k (col q))
  V : ∀ (k : Fin 512) (q : Fin 2048), (x7 (ix2 k q) : EReal) = A.U21 (ix2 k (col q))
  W : ∀ (k : Fin 512) (q : Fin 2048), (x8 (ix2 k q) : EReal) = A.W01 (ix2 k (col q))
  u : ∀ k : Fin 512, (x9 (ix2 (0 : Fin 1) k) : EReal) = A.U11 (ix2 k colZ)
  v : ∀ k : Fin 512, (x10 (ix2 (0 : Fin 1) k) : EReal) = A.U21 (ix2 k colZ)
  w : ∀ k : Fin 512, (x11 (ix2 (0 : Fin 1) k) : EReal) = A.W01 (ix2 k colZ)
  b : ∀ q : Fin 2048, (x12 (ix2 (0 : Fin 1) q) : EReal) = A.bias (ix1 (col q))
  bc : (x13 (ix2 (0 : Fin 1) (0 : Fin 1)) : EReal) = A.bias (ix1 colZ)

variable {A : Args} {t : Fin 32} (x0 x1 x2 x3 : Vec Ideal S512x512 .f32) (x4 x5 : Vec Ideal S512x1 .f32)
  (x6 x7 x8 : Vec Ideal S512x2048 .bf16) (x9 x10 x11 : Vec Ideal S1x512 .f32) (x12 : Vec Ideal S1x2048 .f32)
  (x13 : Vec Ideal S1x1 .f32)

/-- The tile's pre-activation entry is the specification's: the hypotheses identify the entries, and the indicator,
    being finite, moves out of the two sums it was multiplied into. -/
theorem tilePre_eq (hA : Finite A) (hT : TileOf A t x0 x1 x2 x3 x4 x5 x6 x7 x8 x9 x10 x11 x12 x13) (y : Fin 512) (q : Fin 2048) :
    tilePre x2 x1 x3 x4 x5 x6 x7 x8 x12 y q = pre A (row t y) (col q) := by
  have s1 := sum_scale (A.z (ix2 (row t y) (0 : Fin 1))) (fun k : Fin 512 => A.ht (ix2 (row t y) k))
    (fun k : Fin 512 => A.U21 (ix2 k (col q))) (hA.z _) (fun _ => hA.ht _) (fun _ => hA.U21 _)
  have s2 := sum_scale (A.zb (ix2 (row t y) (0 : Fin 1))) (fun k : Fin 512 => A.hb (ix2 (row t y) k))
    (fun k : Fin 512 => A.W01 (ix2 k (col q))) (hA.zb _) (fun _ => hA.hb _) (fun _ => hA.W01 _)
  unfold tilePre pre
  simp only [hT.h, hT.hb, hT.ht, hT.z, hT.zb, hT.U, hT.V, hT.W, hT.b]
  rw [← s1, ← s2]

/-- The boundary column's entry is the specification's pre-activation in the last column. -/
theorem tileCol_eq (hT : TileOf A t x0 x1 x2 x3 x4 x5 x6 x7 x8 x9 x10 x11 x12 x13) (y : Fin 512) :
    tileCol x1 x2 x3 x4 x5 x9 x10 x11 x13 y = pre A (row t y) colZ := by
  unfold tileCol pre
  simp only [hT.h, hT.hb, hT.ht, hT.z, hT.zb, hT.u, hT.v, hT.w, hT.bc]

/-- The new cell state the body stores at row `y`, column `q` of tile `t`. -/
theorem cell_point (hA : Finite A) (hT : TileOf A t x0 x1 x2 x3 x4 x5 x6 x7 x8 x9 x10 x11 x12 x13) (y q : Fin 512) :
    k0_pay1 x0 x5 (k0_pay6 (k0_pay4 x2 x1 x3 x4 x5 x6 x7 x8 x12)) (k0_pay9 x4) (k0_pay10 x5) (k0_pay11 (k0_pay4 x2 x1 x3 x4 x5 x6 x7 x8 x12)) (k0_pay12 x4) (ix2 y q)
      = cNew A (row t y) q := by
  rw [cell_tile]
  simp only [pay4_apply, tilePre_eq x0 x1 x2 x3 x4 x5 x6 x7 x8 x9 x10 x11 x12 x13 hA hT, hT.z, hT.zb, hT.c]
  rfl

/-- The new hidden state the body stores at row `y`, column `q` of tile `t`. -/
theorem hidden_point (hA : Finite A) (hT : TileOf A t x0 x1 x2 x3 x4 x5 x6 x7 x8 x9 x10 x11 x12 x13) (y q : Fin 512) :
    k0_pay2 x0 x2 x4 x5 (k0_pay6 (k0_pay4 x2 x1 x3 x4 x5 x6 x7 x8 x12)) (k0_pay7 (k0_pay4 x2 x1 x3 x4 x5 x6 x7 x8 x12)) (k0_pay9 x4) (k0_pay10 x5) (k0_pay11 (k0_pay4 x2 x1 x3 x4 x5 x6 x7 x8 x12)) (k0_pay12 x4) (ix2 y q)
      = hNew A (row t y) q := by
  rw [hidden_tile]
  simp only [pay4_apply, tilePre_eq x0 x1 x2 x3 x4 x5 x6 x7 x8 x9 x10 x11 x12 x13 hA hT, hT.z, hT.zb, hT.c, hT.h]
  rfl

/-- The new boundary indicator the body stores at row `y` of tile `t`. -/
theorem boundary_point (hT : TileOf A t x0 x1 x2 x3 x4 x5 x6 x7 x8 x9 x10 x11 x12 x13) (y : Fin 512) (e : Fin 1) :
    k0_pay3 (k0_pay8 x1 x3 x4 x5 (k0_pay5 x2 x9) x10 x11 x13) (ix2 y e) = zNew A (row t y) := by
  rw [boundary_tile, tileCol_eq x0 x1 x2 x3 x4 x5 x6 x7 x8 x9 x10 x11 x12 x13 hT]
  rfl

end Cert.PointIsSpec

end
-- ==== Proof.HostSide.lean ====
/-
  The eight arrays the region stages from the host side, read at an entry in terms of the argument arrays as launched.

  Before the region the program cuts each weight matrix of 512 rows and 2049 columns into its first 2048 columns
  (the narrowing format change that follows is the identity on extended reals) and its last column laid out as a row
  of 512 entries, and the bias of 2049 entries into a row of its first 2048 entries and a row of its last entry.
  A slice reads the source at the entry shifted by the slice's offset; a reshape reads the source at the entry with the
  same row-major position.
-/
import proofs.«149025_j45878840656512_2_alg».proof.Proof.Gen.KernelIdeal.Frame
import Idealize.ShloMosaic.Lib.StableHlo.Run
import Idealize.ShloMosaic.Lib.ValueLayout
import Idealize.ShloMosaic.Lib.ValueIdx
import Idealize.ShloMosaic.Lib.Pipeline.Value

set_option maxRecDepth 16384

noncomputable section

namespace Cert.HostSide

open Idealize.ShloMosaic Idealize.ShloMosaic.TcCoe Idealize.ShloMosaic.ValueIdx
open Cert.KernelIdeal

/-! ## The three cuts, over any array -/

/-- The first 2048 columns of a matrix of 2049 columns, narrowed (the identity on extended reals): entry (k, q) is
    the matrix's entry (k, q). -/
theorem firstCols_apply (X : S512x2049.Idx → EReal) (h : S512x2049.Slices ![0, 0] S512x2048)
    (hb : FTy.bits .bf16 < FTy.bits .f32) (k : Fin 512) (q : Fin 2048) :
    (truncf (F := Ideal) .bf16 (extractStridedSlice S512x2048 ![0, 0] X h) hb (ix2 k q) : EReal)
      = X (ix2 k ⟨q.val, by have := q.isLt; omega⟩) :=
  slice2_axis1_apply 0 X h k q ⟨q.val, by have := q.isLt; omega⟩ (Nat.zero_add _).symm

/-- The last column of a matrix of 2049 columns, laid out as a row: entry (0, k) is the matrix's entry (k, 2048). -/
theorem lastCol_apply (X : S512x2049.Idx → EReal) (h1 : S512x2049.Slices ![0, 2048] S512x1)
    (h2 : S512x1.ShapeCasts S512) (h3 : S512.ShapeCasts S1x512) (k : Fin 512) :
    shapeCast S1x512 (shapeCast S512 (extractStridedSlice S512x1 ![0, 2048] X h1) h2) h3 (ix2 (0 : Fin 1) k)
      = X (ix2 k ⟨2048, by omega⟩) := by
  rw [shapeCast_a_1a_apply]
  rw [shapeCast_apply (extractStridedSlice S512x1 ![0, 2048] X h1) h2 (ix1 k) (ix2 k (0 : Fin 1)) (by
    rw [Shape.rowMajor_val_two, Shape.rowMajor_val_one]
    show k.val * 1 + 0 = k.val
    omega)]
  exact slice2_axis1_apply 2048 X h1 k (0 : Fin 1) ⟨2048, by omega⟩ rfl

/-- The first 2048 entries of a vector of 2049 entries, laid out as a row: entry (0, q) is the vector's entry q. -/
theorem firstEntries_apply (X : S2049.Idx → EReal) (h1 : S2049.Slices ![0] S2048) (h2 : S2048.ShapeCasts S1x2048)
    (q : Fin 2048) :
    shapeCast S1x2048 (extractStridedSlice S2048 ![0] X h1) h2 (ix2 (0 : Fin 1) q)
      = X (ix1 ⟨q.val, by have := q.isLt; omega⟩) := by
  rw [shapeCast_a_1a_apply]
  exact extractStridedSlice_apply _ X h1 (ix1 q) (ix1 ⟨q.val, by have := q.isLt; omega⟩) (fun a => by
    match a with
    | ⟨0, _⟩ => exact (Nat.zero_add _).symm)

/-- The last entry of a vector of 2049 entries, laid out as a one-by-one matrix: its entry is the vector's entry 2048. -/
theorem lastEntry_apply (X : S2049.Idx → EReal) (h1 : S2049.Slices ![2048] S1) (h2 : S1.ShapeCasts S1x1) :
    shapeCast S1x1 (extractStridedSlice S1 ![2048] X h1) h2 (ix2 (0 : Fin 1) (0 : Fin 1))
      = X (ix1 ⟨2048, by omega⟩) := by
  rw [shapeCast_a_1a_apply]
  exact extractStridedSlice_apply _ X h1 (ix1 (0 : Fin 1)) (ix1 ⟨2048, by omega⟩) (fun a => by
    match a with
    | ⟨0, _⟩ => rfl)

/-! ## The eight staged arrays -/

variable (m : (ℓ : Loc nD τ sig) → Buf (Elt Ideal) ℓ) (c : Dev nD)

theorem v1_apply (k : Fin 512) (q : Fin 2048) :
    (Gen.V m c main_v1 (ix2 k q) : EReal)
      = (m ((c : Thread nD τ).loc main_arg6) (ix2 k ⟨q.val, by have := q.isLt; omega⟩) : EReal) := by
  have e : @Eq (S512x2048.Idx → EReal) (Gen.V m c main_v1)
      (truncf (F := Ideal) .bf16 (extractStridedSlice S512x2048 ![0, 0] (m ((c : Thread nD τ).loc main_arg6) : S512x2049.Idx → EReal)
        Gen.slices_S512x2049_S512x2048_0_0) Gen.bitsLt_bf16_f32) := by
    dsimp only [Gen.V, Gen.hostOps0]; after_results <;> rfl
  exact (congrFun e (ix2 k q)).trans (firstCols_apply _ _ _ k q)

theorem v6_apply (k : Fin 512) (q : Fin 2048) :
    (Gen.V m c main_v6 (ix2 k q) : EReal)
      = (m ((c : Thread nD τ).loc main_arg7) (ix2 k ⟨q.val, by have := q.isLt; omega⟩) : EReal) := by
  have e : @Eq (S512x2048.Idx → EReal) (Gen.V m c main_v6)
      (truncf (F := Ideal) .bf16 (extractStridedSlice S512x2048 ![0, 0] (m ((c : Thread nD τ).loc main_arg7) : S512x2049.Idx → EReal)
        Gen.slices_S512x2049_S512x2048_0_0) Gen.bitsLt_bf16_f32) := by
    dsimp only [Gen.V, Gen.hostOps0]; after_results <;> rfl
  exact (congrFun e (ix2 k q)).trans (firstCols_apply _ _ _ k q)

theorem v11_apply (k : Fin 512) (q : Fin 2048) :
    (Gen.V m c main_v11 (ix2 k q) : EReal)
      = (m ((c : Thread nD τ).loc main_arg8) (ix2 k ⟨q.val, by have := q.isLt; omega⟩) : EReal) := by
  have e : @Eq (S512x2048.Idx → EReal) (Gen.V m c main_v11)
      (truncf (F := Ideal) .bf16 (extractStridedSlice S512x2048 ![0, 0] (m ((c : Thread nD τ).loc main_arg8) : S512x2049.Idx → EReal)
        Gen.slices_S512x2049_S512x2048_0_0) Gen.bitsLt_bf16_f32) := by
    dsimp only [Gen.V, Gen.hostOps0]; after_results <;> rfl
  exact (congrFun e (ix2 k q)).trans (firstCols_apply _ _ _ k q)

theorem v4_apply (k : Fin 512) :
    (Gen.V m c main_v4 (ix2 (0 : Fin 1) k) : EReal)
      = (m ((c : Thread nD τ).loc main_arg6) (ix2 k ⟨2048, by omega⟩) : EReal) := by
  have e : @Eq (S1x512.Idx → EReal) (Gen.V m c main_v4)
      (shapeCast S1x512 (shapeCast S512 (extractStridedSlice S512x1 ![0, 2048] (m ((c : Thread nD τ).loc main_arg6) : S512x2049.Idx → EReal)
        Gen.slices_S512x2049_S512x1_0_2048) Gen.shapeCasts_S512x1_S512) Gen.shapeCasts_S512_S1x512) := by
    dsimp only [Gen.V, Gen.hostOps0]; after_results <;> rfl
  exact (congrFun e (ix2 (0 : Fin 1) k)).trans (lastCol_apply _ _ _ _ k)

theorem v9_apply (k : Fin 512) :
    (Gen.V m c main_v9 (ix2 (0 : Fin 1) k) : EReal)
      = (m ((c : Thread nD τ).loc main_arg7) (ix2 k ⟨2048, by omega⟩) : EReal) := by
  have e : @Eq (S1x512.Idx → EReal) (Gen.V m c main_v9)
      (shapeCast S1x512 (shapeCast S512 (extractStridedSlice S512x1 ![0, 2048] (m ((c : Thread nD τ).loc main_arg7) : S512x2049.Idx → EReal)
        Gen.slices_S512x2049_S512x1_0_2048) Gen.shapeCasts_S512x1_S512) Gen.shapeCasts_S512_S1x512) := by
    dsimp only [Gen.V, Gen.hostOps0]; after_results <;> rfl
  exact (congrFun e (ix2 (0 : Fin 1) k)).trans (lastCol_apply _ _ _ _ k)

theorem v14_apply (k : Fin 512) :
    (Gen.V m c main_v14 (ix2 (0 : Fin 1) k) : EReal)
      = (m ((c : Thread nD τ).loc main_arg8) (ix2 k ⟨2048, by omega⟩) : EReal) := by
  have e : @Eq (S1x512.Idx → EReal) (Gen.V m c main_v14)
      (shapeCast S1x512 (shapeCast S512 (extractStridedSlice S512x1 ![0, 2048] (m ((c : Thread nD τ).loc main_arg8) : S512x2049.Idx → EReal)
        Gen.slices_S512x2049_S512x1_0_2048) Gen.shapeCasts_S512x1_S512) Gen.shapeCasts_S512_S1x512) := by
    dsimp only [Gen.V, Gen.hostOps0]; after_results <;> rfl
  exact (congrFun e (ix2 (0 : Fin 1) k)).trans (lastCol_apply _ _ _ _ k)

theorem v16_apply (q : Fin 2048) :
    (Gen.V m c main_v16 (ix2 (0 : Fin 1) q) : EReal)
      = (m ((c : Thread nD τ).loc main_arg9) (ix1 ⟨q.val, by have := q.isLt; omega⟩) : EReal) := by
  have e : @Eq (S1x2048.Idx → EReal) (Gen.V m c main_v16)
      (shapeCast S1x2048 (extractStridedSlice S2048 ![0] (m ((c : Thread nD τ).loc main_arg9) : S2049.Idx → EReal)
        Gen.slices_S2049_S2048_0) Gen.shapeCasts_S2048_S1x2048) := by
    dsimp only [Gen.V, Gen.hostOps0]; after_results <;> rfl
  exact (congrFun e (ix2 (0 : Fin 1) q)).trans (firstEntries_apply _ _ _ q)

theorem v18_apply :
    (Gen.V m c main_v18 (ix2 (0 : Fin 1) (0 : Fin 1)) : EReal)
      = (m ((c : Thread nD τ).loc main_arg9) (ix1 ⟨2048, by omega⟩) : EReal) := by
  have e : @Eq (S1x1.Idx → EReal) (Gen.V m c main_v18)
      (shapeCast S1x1 (extractStridedSlice S1 ![2048] (m ((c : Thread nD τ).loc main_arg9) : S2049.Idx → EReal)
        Gen.slices_S2049_S1_2048) Gen.shapeCasts_S1_S1x1) := by
    dsimp only [Gen.V, Gen.hostOps0]; after_results <;> rfl
  exact (congrFun e (ix2 (0 : Fin 1) (0 : Fin 1))).trans (lastEntry_apply _ _ _)

end Cert.HostSide

end
-- ==== Proof.KernelBlocks.lean ====
/-
  From the tiles to the arrays: what the idealized kernel's three result arrays hold after the run.

  The grid has 32 points; point `t` stages rows `512 t … 512 t + 511` of the six row-tiled arguments and the whole of
  the eight weight and bias pieces, and writes back rows `512 t … 512 t + 511` of the three results. Each written
  block is the specification's rows of that tile, and the 32 blocks cover every row, so each result array is the
  specification's array.
-/
import proofs.«149025_j45878840656512_2_alg».proof.Proof.Gen.KernelIdeal.Frame
import proofs.«149025_j45878840656512_2_alg».proof.Proof.PointIsSpec
import proofs.«149025_j45878840656512_2_alg».proof.Proof.HostSide
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Cert.KernelIdeal Cert.KernelIdeal.Gen Cert.CellSpec Cert.PointIsSpec
open Idealize.ShloMosaic.Pipeline (Dat)

namespace Cert.KernelBlocks

variable (m : (ℓ : Loc nD τ sig) → Buf (Elt Ideal) ℓ) (ρ : Dev nD → PrngReg)

/-- The argument arrays of core `c`, as launched. -/
def argsOf (c : Dev nD) : Args :=
  ⟨m ((c : Thread nD τ).loc main_arg0), m ((c : Thread nD τ).loc main_arg1), m ((c : Thread nD τ).loc main_arg2),
   m ((c : Thread nD τ).loc main_arg3), m ((c : Thread nD τ).loc main_arg4), m ((c : Thread nD τ).loc main_arg5),
   m ((c : Thread nD τ).loc main_arg6), m ((c : Thread nD τ).loc main_arg7), m ((c : Thread nD τ).loc main_arg8),
   m ((c : Thread nD τ).loc main_arg9)⟩

theorem hz : (![0, 0] : Fin 2 → Nat) = fun _ => 0 := funext fun a => by fin_cases a <;> rfl

/-- A grid point as a tile number. -/
def tile (t : Fin cfg0.N) : Fin 32 := ⟨t.val, t.isLt⟩

/-- The printed index maps, decided over the grid: the row-tiled windows sit at block row `t`, block column 0; the
    weight and bias windows at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_14.index t (0 : Fin 2) = t.val ∧ win0_14.index t (1 : Fin 2) = 0)
    ∧ (win0_15.index t (0 : Fin 2) = t.val ∧ win0_15.index t (1 : Fin 2) = 0)
    ∧ (win0_16.index t (0 : Fin 2) = t.val ∧ win0_16.index t (1 : Fin 2) = 0) :=
  (by decide +kernel : ∀ t : Fin grid0.N, _)

theorem idx_facts_whole : ∀ t : Fin cfg0.N,
    (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0) :=
  (by decide +kernel : ∀ t : Fin grid0.N, _)

/-- The cell-state block at point `t` holds the argument's rows of tile `t`. -/
theorem blk0 (c : Dev nD) (t : Fin cfg0.N) (y q : Fin 512) :
    iblk m c 0 t (ix2 y q) = m ((c : Thread nD τ).loc main_arg0) (ix2 (row (tile t) y) q) := by
  show V m c main_arg0 (((cfg0.win 0).blk t).view.emb (ix2 y q)) = _
  rw [V_main_arg0]
  refine congrArg _ (funext fun a => Fin.ext ?_)
  obtain ⟨⟨e0, e1⟩, -⟩ := idx_facts t
  match a with
  | ⟨0, _⟩ => show win0_0.index t (0 : Fin 2) * 512 + 1 * y.val = t.val * 512 + y.val; omega
  | ⟨1, _⟩ => show win0_0.index t (1 : Fin 2) * 512 + 1 * q.val = q.val; omega

/-- The lower hidden-state block at point `t` holds the argument's rows of tile `t`. -/
theorem blk1 (c : Dev nD) (t : Fin cfg0.N) (y q : Fin 512) :
    iblk m c 1 t (ix2 y q) = m ((c : Thread nD τ).loc main_arg1) (ix2 (row (tile t) y) q) := by
  show V m c main_arg1 (((cfg0.win 1).blk t).view.emb (ix2 y q)) = _
  rw [V_main_arg1]
  refine congrArg _ (funext fun a => Fin.ext ?_)
  obtain ⟨-, ⟨e0, e1⟩, -⟩ := idx_facts t
  match a with
  | ⟨0, _⟩ => show win0_1.index t (0 : Fin 2) * 512 + 1 * y.val = t.val * 512 + y.val; omega
  | ⟨1, _⟩ => show win0_1.index t (1 : Fin 2) * 512 + 1 * q.val = q.val; omega

/-- The hidden-state block at point `t` holds the argument's rows of tile `t`. -/
theorem blk2 (c : Dev nD) (t : Fin cfg0.N) (y q : Fin 512) :
    iblk m c 2 t (ix2 y q) = m ((c : Thread nD τ).loc main_arg2) (ix2 (row (tile t) y) q) := by
  show V m c main_arg2 (((cfg0.win 2).blk t).view.emb (ix2 y q)) = _
  rw [V_main_arg2]
  refine congrArg _ (funext fun a => Fin.ext ?_)
  obtain ⟨-, -, ⟨e0, e1⟩, -⟩ := idx_facts t
  match a with
  | ⟨0, _⟩ => show win0_2.index t (0 : Fin 2) * 512 + 1 * y.val = t.val * 512 + y.val; omega
  | ⟨1, _⟩ => show win0_2.index t (1 : Fin 2) * 512 + 1 * q.val = q.val; omega

/-- The upper hidden-state block at point `t` holds the argument's rows of tile `t`. -/
theorem blk3 (c : Dev nD) (t : Fin cfg0.N) (y q : Fin 512) :
    iblk m c 3 t (ix2 y q) = m ((c : Thread nD τ).loc main_arg3) (ix2 (row (tile t) y) q) := by
  show V m c main_arg3 (((cfg0.win 3).blk t).view.emb (ix2 y q)) = _
  rw [V_main_arg3]
  refine congrArg _ (funext fun a => Fin.ext ?_)
  obtain ⟨-, -, -, ⟨e0, e1⟩, -⟩ := idx_facts t
  match a with
  | ⟨0, _⟩ => show win0_3.index t (0 : Fin 2) * 512 + 1 * y.val = t.val * 512 + y.val; omega
  | ⟨1, _⟩ => show win0_3.index t (1 : Fin 2) * 512 + 1 * q.val = q.val; omega

/-- The indicator block at point `t` holds the argument's rows of tile `t`. -/
theorem blk4 (c : Dev nD) (t : Fin cfg0.N) (y : Fin 512) :
    iblk m c 4 t (ix2 y (0 : Fin 1)) = m ((c : Thread nD τ).loc main_arg4) (ix2 (row (tile t) y) (0 : Fin 1)) := by
  show V m c main_arg4 (((cfg0.win 4).blk t).view.emb (ix2 y (0 : Fin 1))) = _
  rw [V_main_arg4]
  refine congrArg _ (funext fun a => Fin.ext ?_)
  obtain ⟨-, -, -, -, ⟨e0, e1⟩, -⟩ := idx_facts t
  match a with
  | ⟨0, _⟩ => show win0_4.index t (0 : Fin 2) * 512 + 1 * y.val = t.val * 512 + y.val; omega
  | ⟨1, _⟩ => show win0_4.index t (1 : Fin 2) * 1 + 1 * 0 = 0; omega

/-- The lower indicator block at point `t` holds the argument's rows of tile `t`. -/
theorem blk5 (c : Dev nD) (t : Fin cfg0.N) (y : Fin 512) :
    iblk m c 5 t (ix2 y (0 : Fin 1)) = m ((c : Thread nD τ).loc main_arg5) (ix2 (row (tile t) y) (0 : Fin 1)) := by
  show V m c main_arg5 (((cfg0.win 5).blk t).view.emb (ix2 y (0 : Fin 1))) = _
  rw [V_main_arg5]
  refine congrArg _ (funext fun a => Fin.ext ?_)
  obtain ⟨-, -, -, -, -, ⟨e0, e1⟩, -⟩ := idx_facts t
  match a with
  | ⟨0, _⟩ => show win0_5.index t (0 : Fin 2) * 512 + 1 * y.val = t.val * 512 + y.val; omega
  | ⟨1, _⟩ => show win0_5.index t (1 : Fin 2) * 1 + 1 * 0 = 0; omega

/-- A weight block is, at every point, the argument's first 2048 columns. -/
theorem blk6 (c : Dev nD) (t : Fin cfg0.N) (k : Fin 512) (q : Fin 2048) :
    (iblk m c 6 t (ix2 k q) : EReal) = m ((c : Thread nD τ).loc main_arg6) (ix2 k (col q)) := by
  refine Eq.trans (?_ : _ = (V m c main_v1 (ix2 k q) : EReal)) (Cert.HostSide.v1_apply m c k q)
  show (V m c main_v1 (((cfg0.win 6).blk t).view.emb (ix2 k q)) : EReal) = _
  refine congrArg _ (funext fun a => Fin.ext ?_)
  obtain ⟨⟨e0, e1⟩, -⟩ := idx_facts_whole t
  match a with
  | ⟨0, _⟩ => show win0_6.index t (0 : Fin 2) * 512 + 1 * k.val = k.val; omega
  | ⟨1, _⟩ => show win0_6.index t (1 : Fin 2) * 2048 + 1 * q.val = q.val; omega

/-- A weight block is, at every point, the argument's first 2048 columns. -/
theorem blk7 (c : Dev nD) (t : Fin cfg0.N) (k : Fin 512) (q : Fin 2048) :
    (iblk m c 7 t (ix2 k q) : EReal) = m ((c : Thread nD τ).loc main_arg7) (ix2 k (col q)) := by
  refine Eq.trans (?_ : _ = (V m c main_v6 (ix2 k q) : EReal)) (Cert.HostSide.v6_apply m c k q)
  show (V m c main_v6 (((cfg0.win 7).blk t).view.emb (ix2 k q)) : EReal) = _
  refine congrArg _ (funext fun a => Fin.ext ?_)
  obtain ⟨-, ⟨e0, e1⟩, -⟩ := idx_facts_whole t
  match a with
  | ⟨0, _⟩ => show win0_7.index t (0 : Fin 2) * 512 + 1 * k.val = k.val; omega
  | ⟨1, _⟩ => show win0_7.index t (1 : Fin 2) * 2048 + 1 * q.val = q.val; omega

/-- A weight block is, at every point, the argument's first 2048 columns. -/
theorem blk8 (c : Dev nD) (t : Fin cfg0.N) (k : Fin 512) (q : Fin 2048) :
    (iblk m c 8 t (ix2 k q) : EReal) = m ((c : Thread nD τ).loc main_arg8) (ix2 k (col q)) := by
  refine Eq.trans (?_ : _ = (V m c main_v11 (ix2 k q) : EReal)) (Cert.HostSide.v11_apply m c k q)
  show (V m c main_v11 (((cfg0.win 8).blk t).view.emb (ix2 k q)) : EReal) = _
  refine congrArg _ (funext fun a => Fin.ext ?_)
  obtain ⟨-, -, ⟨e0, e1⟩, -⟩ := idx_facts_whole t
  match a with
  | ⟨0, _⟩ => show win0_8.index t (0 : Fin 2) * 512 + 1 * k.val = k.val; omega
  | ⟨1, _⟩ => show win0_8.index t (1 : Fin 2) * 2048 + 1 * q.val = q.val; omega

/-- A weight matrix's last column, laid as a row, at every point. -/
theorem blk9 (c : Dev nD) (t : Fin cfg0.N) (k : Fin 512) :
    (iblk m c 9 t (ix2 (0 : Fin 1) k) : EReal) = m ((c : Thread nD τ).loc main_arg6) (ix2 k colZ) := by
  refine Eq.trans (?_ : _ = (V m c main_v4 (ix2 (0 : Fin 1) k) : EReal)) (Cert.HostSide.v4_apply m c k)
  show (V m c main_v4 (((cfg0.win 9).blk t).view.emb (ix2 (0 : Fin 1) k)) : EReal) = _
  refine congrArg _ (funext fun a => Fin.ext ?_)
  obtain ⟨-, -, -, ⟨e0, e1⟩, -⟩ := idx_facts_whole t
  match a with
  | ⟨0, _⟩ => show win0_9.index t (0 : Fin 2) * 1 + 1 * 0 = 0; omega
  | ⟨1, _⟩ => show win0_9.index t (1 : Fin 2) * 512 + 1 * k.val = k.val; omega

/-- A weight matrix's last column, laid as a row, at every point. -/
theorem blk10 (c : Dev nD) (t : Fin cfg0.N) (k : Fin 512) :
    (iblk m c 10 t (ix2 (0 : Fin 1) k) : EReal) = m ((c : Thread nD τ).loc main_arg7) (ix2 k colZ) := by
  refine Eq.trans (?_ : _ = (V m c main_v9 (ix2 (0 : Fin 1) k) : EReal)) (Cert.HostSide.v9_apply m c k)
  show (V m c main_v9 (((cfg0.win 10).blk t).view.emb (ix2 (0 : Fin 1) k)) : EReal) = _
  refine congrArg _ (funext fun a => Fin.ext ?_)
  obtain ⟨-, -, -, -, ⟨e0, e1⟩, -⟩ := idx_facts_whole t
  match a with
  | ⟨0, _⟩ => show win0_10.index t (0 : Fin 2) * 1 + 1 * 0 = 0; omega
  | ⟨1, _⟩ => show win0_10.index t (1 : Fin 2) * 512 + 1 * k.val = k.val; omega

/-- A weight matrix's last column, laid as a row, at every point. -/
theorem blk11 (c : Dev nD) (t : Fin cfg0.N) (k : Fin 512) :
    (iblk m c 11 t (ix2 (0 : Fin 1) k) : EReal) = m ((c : Thread nD τ).loc main_arg8) (ix2 k colZ) := by
  refine Eq.trans (?_ : _ = (V m c main_v14 (ix2 (0 : Fin 1) k) : EReal)) (Cert.HostSide.v14_apply m c k)
  show (V m c main_v14 (((cfg0.win 11).blk t).view.emb (ix2 (0 : Fin 1) k)) : EReal) = _
  refine congrArg _ (funext fun a => Fin.ext ?_)
  obtain ⟨-, -, -, -, -, ⟨e0, e1⟩, -⟩ := idx_facts_whole t
  match a with
  | ⟨0, _⟩ => show win0_11.index t (0 : Fin 2) * 1 + 1 * 0 = 0; omega
  | ⟨1, _⟩ => show win0_11.index t (1 : Fin 2) * 512 + 1 * k.val = k.val; omega

/-- The bias's first 2048 entries, laid as a row, at every point. -/
theorem blk12 (c : Dev nD) (t : Fin cfg0.N) (q : Fin 2048) :
    (iblk m c 12 t (ix2 (0 : Fin 1) q) : EReal) = m ((c : Thread nD τ).loc main_arg9) (ix1 (col q)) := by
  refine Eq.trans (?_ : _ = (V m c main_v16 (ix2 (0 : Fin 1) q) : EReal)) (Cert.HostSide.v16_apply m c q)
  show (V m c main_v16 (((cfg0.win 12).blk t).view.emb (ix2 (0 : Fin 1) q)) : EReal) = _
  refine congrArg _ (funext fun a => Fin.ext ?_)
  obtain ⟨-, -, -, -, -, -, ⟨e0, e1⟩, -⟩ := idx_facts_whole t
  match a with
  | ⟨0, _⟩ => show win0_12.index t (0 : Fin 2) * 1 + 1 * 0 = 0; omega
  | ⟨1, _⟩ => show win0_12.index t (1 : Fin 2) * 2048 + 1 * q.val = q.val; omega

/-- The bias's last entry, at every point. -/
theorem blk13 (c : Dev nD) (t : Fin cfg0.N) :
    (iblk m c 13 t (ix2 (0 : Fin 1) (0 : Fin 1)) : EReal) = m ((c : Thread nD τ).loc main_arg9) (ix1 colZ) := by
  refine Eq.trans (?_ : _ = (V m c main_v18 (ix2 (0 : Fin 1) (0 : Fin 1)) : EReal)) (Cert.HostSide.v18_apply m c)
  show (V m c main_v18 (((cfg0.win 13).blk t).view.emb (ix2 (0 : Fin 1) (0 : Fin 1))) : EReal) = _
  refine congrArg _ (funext fun a => Fin.ext ?_)
  obtain ⟨-, -, -, -, -, -, -, ⟨e0, e1⟩⟩ := idx_facts_whole t
  match a with
  | ⟨0, _⟩ => show win0_13.index t (0 : Fin 2) * 1 + 1 * 0 = 0; omega
  | ⟨1, _⟩ => show win0_13.index t (1 : Fin 2) * 1 + 1 * 0 = 0; omega

/-- THE BLOCKS AT POINT `t` are the argument arrays' entries of tile `t`: the hypothesis under which the body
    computes the specification's rows. -/
theorem tile_at (c : Dev nD) (t : Fin cfg0.N) :
    Cert.PointIsSpec.TileOf (argsOf m c) (tile t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) where
  c := blk0 m c t
  hb := blk1 m c t
  h := blk2 m c t
  ht := blk3 m c t
  z := blk4 m c t
  zb := blk5 m c t
  U := blk6 m c t
  V := blk7 m c t
  W := blk8 m c t
  u := blk9 m c t
  v := blk10 m c t
  w := blk11 m c t
  b := blk12 m c t
  bc := blk13 m c t

/-- WHAT POINT `t` WRITES BACK to the new cell state is block `t` of the specification's array. -/
theorem flushed15_eq (c : Dev nD) (hA : Cert.PointIsSpec.Finite (argsOf m c)) (t : Fin cfg0.N) :
    (dats m 0 c).flushed 15 t = ((cfg0.win 15).blk t).view.read (Elt Ideal) (cNewArr (argsOf m c)) := by
  show (cfg0.win 15).cut (grid0.coords t) ((dats m 0 c).after 15 t) = _
  rw [after0_15]
  unfold out0_15
  rw [View.canon_unit_zero hz]
  simp only [View.ld_unit_zero (S := S512x512) hz, View.ld_unit_zero (S := S512x1) hz, View.ld_unit_zero (S := S512x2048) hz,
    View.ld_unit_zero (S := S1x2048) hz]
  funext j
  obtain ⟨y, q, rfl⟩ : ∃ (y q : Fin 512), j = ix2 y q := ⟨j 0, j 1, eq_ix2 j⟩
  refine (Cert.PointIsSpec.cell_point (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) hA (tile_at m c t) y q).trans ?_
  show cNew (argsOf m c) (row (tile t) y) q = cNewArr (argsOf m c) (((cfg0.win 15).blk t).view.emb (ix2 y q))
  obtain ⟨-, -, -, -, -, -, -, ⟨e0, e1⟩, -⟩ := idx_facts t
  unfold cNewArr
  refine congrArg₂ (cNew (argsOf m c)) (Fin.ext ?_) (Fin.ext ?_)
  · show t.val * 512 + y.val = win0_15.index t (0 : Fin 2) * 512 + 1 * y.val; omega
  · show q.val = win0_15.index t (1 : Fin 2) * 512 + 1 * q.val; omega

/-- WHAT POINT `t` WRITES BACK to the new hidden state is block `t` of the specification's array. -/
theorem flushed14_eq (c : Dev nD) (hA : Cert.PointIsSpec.Finite (argsOf m c)) (t : Fin cfg0.N) :
    (dats m 0 c).flushed 14 t = ((cfg0.win 14).blk t).view.read (Elt Ideal) (hNewArr (argsOf m c)) := by
  show (cfg0.win 14).cut (grid0.coords t) ((dats m 0 c).after 14 t) = _
  rw [after0_14]
  unfold out0_14
  rw [View.canon_unit_zero hz]
  simp only [View.ld_unit_zero (S := S512x512) hz, View.ld_unit_zero (S := S512x1) hz, View.ld_unit_zero (S := S512x2048) hz,
    View.ld_unit_zero (S := S1x2048) hz]
  funext j
  obtain ⟨y, q, rfl⟩ : ∃ (y q : Fin 512), j = ix2 y q := ⟨j 0, j 1, eq_ix2 j⟩
  refine (Cert.PointIsSpec.hidden_point (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) hA (tile_at m c t) y q).trans ?_
  show hNew (argsOf m c) (row (tile t) y) q = hNewArr (argsOf m c) (((cfg0.win 14).blk t).view.emb (ix2 y q))
  obtain ⟨-, -, -, -, -, -, ⟨e0, e1⟩, -⟩ := idx_facts t
  unfold hNewArr
  refine congrArg₂ (hNew (argsOf m c)) (Fin.ext ?_) (Fin.ext ?_)
  · show t.val * 512 + y.val = win0_14.index t (0 : Fin 2) * 512 + 1 * y.val; omega
  · show q.val = win0_14.index t (1 : Fin 2) * 512 + 1 * q.val; omega

/-- WHAT POINT `t` WRITES BACK to the new boundary indicator is block `t` of the specification's array. -/
theorem flushed16_eq (c : Dev nD) (t : Fin cfg0.N) :
    (dats m 0 c).flushed 16 t = ((cfg0.win 16).blk t).view.read (Elt Ideal) (zNewArr (argsOf m c)) := by
  show (cfg0.win 16).cut (grid0.coords t) ((dats m 0 c).after 16 t) = _
  rw [after0_16]
  unfold out0_16
  rw [View.canon_unit_zero hz]
  simp only [View.ld_unit_zero (S := S512x512) hz, View.ld_unit_zero (S := S512x1) hz, View.ld_unit_zero (S := S1x512) hz,
    View.ld_unit_zero (S := S1x1) hz]
  funext j
  obtain ⟨y, e, rfl⟩ : ∃ (y : Fin 512) (e : Fin 1), j = ix2 y e := ⟨j 0, j 1, eq_ix2 j⟩
  refine (Cert.PointIsSpec.boundary_point (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (tile_at m c t) y e).trans ?_
  show zNew (argsOf m c) (row (tile t) y) = zNewArr (argsOf m c) (((cfg0.win 16).blk t).view.emb (ix2 y e))
  obtain ⟨-, -, -, -, -, -, -, -, ⟨e0, e1⟩⟩ := idx_facts t
  unfold zNewArr
  refine congrArg (zNew (argsOf m c)) (Fin.ext ?_)
  show t.val * 512 + y.val = win0_16.index t (0 : Fin 2) * 512 + 1 * y.val; omega

/-- An index of the result is in point `t`'s block iff each coordinate is in the block's range on its axis. -/
theorem mem_blk14 (t : Fin cfg0.N) (i : S16384x512.Idx) :
    i ∈ ((cfg0.win 14).blk t).view.set ↔ ∀ a : Fin 2, win0_14.index t a * S512x512.size a ≤ (i a).val ∧ (i a).val < win0_14.index t a * S512x512.size a + S512x512.size a := by
  show i ∈ ((View.whole main_v19_0).slice (win0_14.rect t)).set ↔ _
  rw [View.set_slice_whole, Rect.mem_set_unit]
  exact Iff.rfl

/-- Every entry of the result is in some point's block: the one of its row's tile. -/
theorem cover14 (i : S16384x512.Idx) : ∃ t : Fin cfg0.N, (cfg0.win 14).flush t = true ∧ i ∈ ((cfg0.win 14).blk t).view.set := by
  have hi0 : (i 0).val < 16384 := (i 0).isLt
  have hi1 : (i 1).val < 512 := (i 1).isLt
  refine ⟨⟨(i 0).val / 512, by show (i 0).val / 512 < 32; omega⟩, flush0_14 _, ?_⟩
  rw [mem_blk14]
  obtain ⟨-, -, -, -, -, -, ⟨e0, e1⟩, -⟩ := idx_facts ⟨(i 0).val / 512, by show (i 0).val / 512 < 32; omega⟩
  intro a
  match a with
  | ⟨0, _⟩ => show win0_14.index _ (0 : Fin 2) * 512 ≤ (i 0).val ∧ (i 0).val < win0_14.index _ (0 : Fin 2) * 512 + 512; rw [e0]; show (i 0).val / 512 * 512 ≤ (i 0).val ∧ (i 0).val < (i 0).val / 512 * 512 + 512; omega
  | ⟨1, _⟩ => show win0_14.index _ (1 : Fin 2) * 512 ≤ (i 1).val ∧ (i 1).val < win0_14.index _ (1 : Fin 2) * 512 + 512; rw [e1]; omega

/-- An index of the result is in point `t`'s block iff each coordinate is in the block's range on its axis. -/
theorem mem_blk15 (t : Fin cfg0.N) (i : S16384x512.Idx) :
    i ∈ ((cfg0.win 15).blk t).view.set ↔ ∀ a : Fin 2, win0_15.index t a * S512x512.size a ≤ (i a).val ∧ (i a).val < win0_15.index t a * S512x512.size a + S512x512.size a := by
  show i ∈ ((View.whole main_v19_1).slice (win0_15.rect t)).set ↔ _
  rw [View.set_slice_whole, Rect.mem_set_unit]
  exact Iff.rfl

/-- Every entry of the result is in some point's block: the one of its row's tile. -/
theorem cover15 (i : S16384x512.Idx) : ∃ t : Fin cfg0.N, (cfg0.win 15).flush t = true ∧ i ∈ ((cfg0.win 15).blk t).view.set := by
  have hi0 : (i 0).val < 16384 := (i 0).isLt
  have hi1 : (i 1).val < 512 := (i 1).isLt
  refine ⟨⟨(i 0).val / 512, by show (i 0).val / 512 < 32; omega⟩, flush0_15 _, ?_⟩
  rw [mem_blk15]
  obtain ⟨-, -, -, -, -, -, -, ⟨e0, e1⟩, -⟩ := idx_facts ⟨(i 0).val / 512, by show (i 0).val / 512 < 32; omega⟩
  intro a
  match a with
  | ⟨0, _⟩ => show win0_15.index _ (0 : Fin 2) * 512 ≤ (i 0).val ∧ (i 0).val < win0_15.index _ (0 : Fin 2) * 512 + 512; rw [e0]; show (i 0).val / 512 * 512 ≤ (i 0).val ∧ (i 0).val < (i 0).val / 512 * 512 + 512; omega
  | ⟨1, _⟩ => show win0_15.index _ (1 : Fin 2) * 512 ≤ (i 1).val ∧ (i 1).val < win0_15.index _ (1 : Fin 2) * 512 + 512; rw [e1]; omega

/-- An index of the result is in point `t`'s block iff each coordinate is in the block's range on its axis. -/
theorem mem_blk16 (t : Fin cfg0.N) (i : S16384x1.Idx) :
    i ∈ ((cfg0.win 16).blk t).view.set ↔ ∀ a : Fin 2, win0_16.index t a * S512x1.size a ≤ (i a).val ∧ (i a).val < win0_16.index t a * S512x1.size a + S512x1.size a := by
  show i ∈ ((View.whole main_v19_2).slice (win0_16.rect t)).set ↔ _
  rw [View.set_slice_whole, Rect.mem_set_unit]
  exact Iff.rfl

/-- Every entry of the result is in some point's block: the one of its row's tile. -/
theorem cover16 (i : S16384x1.Idx) : ∃ t : Fin cfg0.N, (cfg0.win 16).flush t = true ∧ i ∈ ((cfg0.win 16).blk t).view.set := by
  have hi0 : (i 0).val < 16384 := (i 0).isLt
  have hi1 : (i 1).val < 1 := (i 1).isLt
  refine ⟨⟨(i 0).val / 512, by show (i 0).val / 512 < 32; omega⟩, flush0_16 _, ?_⟩
  rw [mem_blk16]
  obtain ⟨-, -, -, -, -, -, -, -, ⟨e0, e1⟩⟩ := idx_facts ⟨(i 0).val / 512, by show (i 0).val / 512 < 32; omega⟩
  intro a
  match a with
  | ⟨0, _⟩ => show win0_16.index _ (0 : Fin 2) * 512 ≤ (i 0).val ∧ (i 0).val < win0_16.index _ (0 : Fin 2) * 512 + 512; rw [e0]; show (i 0).val / 512 * 512 ≤ (i 0).val ∧ (i 0).val < (i 0).val / 512 * 512 + 512; omega
  | ⟨1, _⟩ => show win0_16.index _ (1 : Fin 2) * 1 ≤ (i 1).val ∧ (i 1).val < win0_16.index _ (1 : Fin 2) * 1 + 1; rw [e1]; omega

/-- THE ARRAYS after the run: the specification's. -/
theorem final14 (c : Dev nD) (hA : Cert.PointIsSpec.Finite (argsOf m c)) : (dats m 0 c).arrAt 14 cfg0.N = hNewArr (argsOf m c) :=
  (dats m 0 c).arrAt_eq_of_cover 14 (hNewArr (argsOf m c)) (fun t _ => flushed14_eq m c hA t) cover14
theorem final15 (c : Dev nD) (hA : Cert.PointIsSpec.Finite (argsOf m c)) : (dats m 0 c).arrAt 15 cfg0.N = cNewArr (argsOf m c) :=
  (dats m 0 c).arrAt_eq_of_cover 15 (cNewArr (argsOf m c)) (fun t _ => flushed15_eq m c hA t) cover15
theorem final16 (c : Dev nD) : (dats m 0 c).arrAt 16 cfg0.N = zNewArr (argsOf m c) :=
  (dats m 0 c).arrAt_eq_of_cover 16 (zNewArr (argsOf m c)) (fun t _ => flushed16_eq m c t) cover16

/-- THE RUN, READ: every weakly fair execution of the idealized kernel from finite arguments ends with the three
    result arrays at the specification's and the arguments unchanged. -/
theorem run (hA : ∀ c : Dev nD, Cert.PointIsSpec.Finite (argsOf m c)) :
    θ_run defs (onTc (τ := τ) (main (F := Ideal))) ⟨m, fun _ => 0, ρ⟩ fun r => ∀ c : Dev nD,
      r.2.mem ((c : Thread nD τ).loc main_v19_0) = hNewArr (argsOf m c)
      ∧ r.2.mem ((c : Thread nD τ).loc main_v19_1) = cNewArr (argsOf m c)
      ∧ r.2.mem ((c : Thread nD τ).loc main_v19_2) = zNewArr (argsOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨((h c).1 14).trans (final14 m c (hA c)),
      ((h c).1 15).trans (final15 m c (hA c)),
      ((h c).1 16).trans (final16 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)
    (run_main m ρ)

end Cert.KernelBlocks

end
-- ==== Proof.lean ====
/-
  The kernel is one step of a hierarchical multiscale LSTM cell over 16384 rows, computed tile by tile (512 rows a grid
  point) with the three gate products and the boundary column fused in one body; the reference computes the same step
  with three whole matrix products of 2049 columns. Both are compared, over the extended reals, with one
  specification (CellSpec): the gate pre-activations `pre`, and the new cell state, hidden state and boundary
  indicator as pointwise functions of them.

  * The reference's result terms are the specification's arrays entry by entry (RefIsSpec): its logistic is spelled
    `1 / (1 + exp (-x))`, and its boundary indicator as `ẑ + (round ẑ - ẑ)`, which is `round ẑ` because the hard
    sigmoid `ẑ` lies between zero and one.
  * The kernel multiplies the indicators into the rows before the matrix products, where the specification multiplies
    the finished sums: equal because a finite factor moves across a finite sum of finite products (KernelTile,
    PointIsSpec); this is the one place where the precondition — every input finite — is used (FiniteArgs).
  * The arrays the kernel's windows stage are the arguments' rows of a tile, or pieces the host cut from the weights
    and the bias before the launch (HostSide); the 32 written blocks cover the results (KernelBlocks).
  The three frames are the generated frame proofs and the reference's generated run; the ideal pass rewrote nothing,
  so `preserves` has nothing to state.
-/
import proofs.«149025_j45878840656512_2_alg».proof.Defs
import proofs.«149025_j45878840656512_2_alg».proof.Proof.Gen.Kernel
import proofs.«149025_j45878840656512_2_alg».proof.Proof.Gen.Kernel.Skeleton
import proofs.«149025_j45878840656512_2_alg».proof.Proof.Gen.Kernel.Launch
import proofs.«149025_j45878840656512_2_alg».proof.Proof.Gen.Kernel.Points
import proofs.«149025_j45878840656512_2_alg».proof.Proof.Gen.Kernel.Frame
import proofs.«149025_j45878840656512_2_alg».proof.Proof.Gen.KernelIdeal
import proofs.«149025_j45878840656512_2_alg».proof.Proof.Gen.KernelIdeal.Skeleton
import proofs.«149025_j45878840656512_2_alg».proof.Proof.Gen.KernelIdeal.Launch
import proofs.«149025_j45878840656512_2_alg».proof.Proof.Gen.KernelIdeal.Points
import proofs.«149025_j45878840656512_2_alg».proof.Proof.Gen.KernelIdeal.Frame
import proofs.«149025_j45878840656512_2_alg».proof.Proof.Gen.ReferenceIdeal
import proofs.«149025_j45878840656512_2_alg».proof.Proof.Gen.Pre_finite_inputs
import proofs.«149025_j45878840656512_2_alg».proof.Proof.Gen.ReferenceIdeal.Run
import proofs.«149025_j45878840656512_2_alg».proof.Proof.Gen.ReferenceIdeal.Read
import proofs.«149025_j45878840656512_2_alg».proof.Proof.RefIsSpec
import proofs.«149025_j45878840656512_2_alg».proof.Proof.FiniteArgs
import proofs.«149025_j45878840656512_2_alg».proof.Proof.KernelBlocks
import Idealize.ShloMosaic.Adequacy
import Idealize.ShloMosaic.Init

noncomputable section

namespace Cert.Proof

open Idealize.ShloMosaic Idealize.ShloMosaic.TcCoe Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference's frame is its run with the results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2.2)
    (Cert.ReferenceIdeal.Value.run (F := Ideal) m ρ)

/-- The precondition makes the arrays that meet an indicator in a product finite. -/
theorem finite_of_pre [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.PointIsSpec.Finite (Cert.KernelBlocks.argsOf m c) :=
  let h := Cert.FiniteArgs.finite_args m hpre c
  ⟨h.1, h.2.1, h.2.2.1, h.2.2.2.1, h.2.2.2.2.1, h.2.2.2.2.2⟩

/-- Both idealized programs end with the specification's three arrays of the (agreeing) arguments. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.CellSpec.hNewArr (Cert.KernelBlocks.argsOf m c), fun c => Cert.CellSpec.cNewArr (Cert.KernelBlocks.argsOf m c),
    fun c => Cert.CellSpec.zNewArr (Cert.KernelBlocks.argsOf m c), Cert.KernelBlocks.run m ρ (finite_of_pre m hpre), ?_⟩
  have hargs : ∀ c : Dev Cert.ReferenceIdeal.nD, Cert.RefIsSpec.args
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      = Cert.KernelBlocks.argsOf m c := by
    intro c
    obtain ⟨e0, e1, e2, e3, e4, e5, e6, e7, e8, e9⟩ := hagree c
    unfold Cert.KernelBlocks.argsOf
    show Cert.CellSpec.Args.mk _ _ _ _ _ _ _ _ _ _ = Cert.CellSpec.Args.mk _ _ _ _ _ _ _ _ _ _
    rw [e0, e1, e2, e3, e4, e5, e6, e7, e8, e9]
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v69_eq, Cert.RefIsSpec.hNew_eq, hargs c]
  · rw [Cert.ReferenceIdeal.Read.val_main_v59_eq, Cert.RefIsSpec.cNew_eq, hargs c]
  · rw [Cert.ReferenceIdeal.Read.val_main_v72_eq,
      Cert.RefIsSpec.zNew_eq (m' ((c.tc : Thread Cert.ReferenceIdeal.nD Cert.ReferenceIdeal.τ).loc Cert.ReferenceIdeal.main_arg0)), hargs c]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
